-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S256x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x2 .f32 := Host.absf main_arg4
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S2000x128 : Shape := ⟨2, ![2000, 128]⟩
abbrev S2000x1 : Shape := ⟨2, ![2000, 1]⟩
abbrev S1700000x128 : Shape := ⟨2, ![1700000, 128]⟩
abbrev S128x2 : Shape := ⟨2, ![128, 2]⟩
abbrev S100000x2 : Shape := ⟨2, ![100000, 2]⟩
abbrev S2000x2 : Shape := ⟨2, ![2000, 2]⟩
abbrev S1x128 : Shape := ⟨2, ![1, 128]⟩
abbrev S1x2 : Shape := ⟨2, ![1, 2]⟩

abbrev nBuf : Space → Nat
  | .hbm => 45
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S256x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S128x2, .f32⟩
  | .hbm, ⟨43, _⟩ => ⟨S128x2, .f32⟩
  | .hbm, ⟨44, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S128, .f32⟩
  | .local _ .vmem, ⟨14, _⟩ => ⟨S128x2, .f32⟩
  | .local _ .vmem, ⟨15, _⟩ => ⟨S128x2, .f32⟩
  | .local _ .vmem, ⟨16, _⟩ => ⟨S2, .f32⟩
  | .local _ .vmem, ⟨17, _⟩ => ⟨S2000x2, .f32⟩
  | .local _ .vmem, ⟨18, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  slices_S256x2_S128x2_0_0 : S256x2.Slices ![0, 0] S128x2
  slices_S256x2_S128x2_128_0 : S256x2.Slices ![128, 0] S128x2
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S100000_S1700000x1_S1700000_n_0_0_1_wf : ScatterDims.WF S100000 S1700000x1 S1700000 [] [0] [0] 1
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x2.size a ≤ S128x2.size a
  hwx1_4 : ∀ i : grid1.Coords, EltTy.bits .f32 = 32 ∨ (Rect.block (s := S128x2) S128x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2.size a ≤ S2.size a
  hwx1_6 : ∀ i : grid1.Coords, EltTy.bits .f32 = 32 ∨ (Rect.block (s := S2) S2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x2.size a ≤ S100000x2.size a
  hwx1_7 : ∀ i : grid1.Coords, EltTy.bits .f32 = 32 ∨ (Rect.block (s := S100000x2) S2000x2.size (cc1_transform_7 i) (hinb1_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S128x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S2000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x256 : Shape := ⟨2, ![100000, 256]⟩
abbrev S100000x2 : Shape := ⟨2, ![100000, 2]⟩
abbrev S1x2 : Shape := ⟨2, ![1, 2]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S256x2, .f32⟩
  | .hbm, ⟨5, _⟩ => ⟨S2, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x256, .f32⟩
  | .hbm, ⟨70, _⟩ => ⟨S100000x2, .f32⟩
  | .hbm, ⟨71, _⟩ => ⟨S1x2, .f32⟩
  | .hbm, ⟨72, _⟩ => ⟨S100000x2, .f32⟩
  | .hbm, ⟨73, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x256_S256x2_S100000x2_1_0_0_1_n_n_wf : DotDims.WF S100000x256 S256x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x256_S256x2_S100000x2_1_0_0_1_n_n : DotDims S100000x256 S256x2 S100000x2 where
  lhsContracting := [1]
  rhsContracting := [0]
  lhsNonContracting := [0]
  rhsNonContracting := [1]
  lhsBatch := []
  rhsBatch := []
  wf := dot_S100000x256_S256x2_S100000x2_1_0_0_1_n_n_wf

class Facts : Prop extends Facts₀ where

variable [Facts]
-- ==== Proof.KRun.lean ====
/-
  The idealized kernel program's run with its result named.

  The program is two grid regions among stretches of host operations. Every weakly fair execution terminates, nothing
  faulting, and in every final state the result buffer holds what the fold of the program's segments leaves there
  (the buffer contents at the last segment boundary), while the six argument arrays are as launched. The value of that
  fold at the result buffer is read in the sibling modules: the last region's write-backs, block by block.
-/
import proofs.«153504_j16999480558341_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault; the result
    buffer ends at the contents of the last segment boundary, and each argument array ends as launched. -/
theorem run_named : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.KHostW.lean ====
/-
  The node factors as the idealized kernel program's host operations leave them: the reference's stage.

  The factor vector is written by an outlined three-operation function (a scalar copied, broadcast to the vector's shape,
  then an elementwise choice between the inverse square root of the degree and that zero, by the sign test of the degree).
  Those operations name their buffers through typed references, and their results carry transports between a buffer's own
  type and the value's type; read with heterogeneous equality the transports never have to be opened. The operands —
  the sign test, the inverse square root, the zero — are written earlier by plain operations and are the reference's
  stages by unfolding.
-/
import proofs.«153504_j16999480558341_2_alg».proof.Proof.Gen.KernelIdeal.Frame
import proofs.«153504_j16999480558341_2_alg».proof.Proof.RefRead
import proofs.«153504_j16999480558341_2_alg».proof.Proof.LibHostRead

set_option maxRecDepth 16384

noncomputable section

namespace Cert.KernelIdeal.KHostW

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The sign test of the degrees, after the first stretch of host operations. -/
theorem W1_v12 : W1 m ρ c (Proc.devRef .tc main_v12)
    = Cert.ReferenceIdeal.ReadP.val_main_v12 (F := Ideal) (m ((c : Thread nD τ).loc main_arg1)) := by
  show StableHlo.after hostOps0 (W0 m ρ c) (Proc.devRef .tc main_v12) = _
  dsimp only [hostOps0]
  after_results
  rfl

/-- The inverse square roots of the degrees. -/
theorem W1_v13 : W1 m ρ c (Proc.devRef .tc main_v13)
    = Cert.ReferenceIdeal.ReadP.val_main_v13 (F := Ideal) (m ((c : Thread nD τ).loc main_arg1)) := by
  show StableHlo.after hostOps0 (W0 m ρ c) (Proc.devRef .tc main_v13) = _
  dsimp only [hostOps0]
  after_results
  rfl

/-- The scalar zero the choice falls back to. -/
theorem W1_cst2 : W1 m ρ c (Proc.devRef .tc main_cst_2) = Cert.ReferenceIdeal.ReadP.val_main_cst_2 (F := Ideal) := by
  show StableHlo.after hostOps0 (W0 m ρ c) (Proc.devRef .tc main_cst_2) = _
  dsimp only [hostOps0]
  after_results
  rfl

/-- The outlined choice, from any contents `V1` whose three operand buffers hold `a`, `b`, `z`: its result buffer holds
    `a ? b : broadcast z`. -/
theorem where_read (V1 : Valuation τ sig (Elt Ideal)) (a : (⟨S100000, .i1⟩ : BufTy).Contents (Elt Ideal))
    (b : (⟨S100000, .f32⟩ : BufTy).Contents (Elt Ideal)) (z : (⟨S_, .f32⟩ : BufTy).Contents (Elt Ideal))
    (hA : HEq (V1 (Proc.devRef .tc main_v12)) a) (hB : HEq (V1 (Proc.devRef .tc main_v13)) b)
    (hC : HEq (V1 (Proc.devRef .tc main_cst_2)) z) :
    HEq (StableHlo.after hostOps0_1 V1 (Proc.devRef .tc main_v14))
      (select a b (broadcastInDim S100000 ![] bcast_S_S100000 (id z))) := by
  simp only [hostOps0_1, after_cons, after_nil]
  refine HostRead.tternary_heq _ _ _ _ _ _ a b _ ?_ ?_ ?_
  · rw [unary_result_ne, unary_result_ne]
    all_goals first | exact hA | decide
  · rw [unary_result_ne, unary_result_ne]
    all_goals first | exact hB | decide
  · refine HostRead.tunary_heq _ _ _ _ (id z) ?_
    exact HostRead.tunary_heq _ _ id V1 z hC

/-- The factor vector after the outlined function is the reference's factor stage. -/
theorem W2_v14 : W2 m ρ c (Proc.devRef .tc main_v14)
    = Cert.ReferenceIdeal.ReadP.val_main_v14 (F := Ideal) (m ((c : Thread nD τ).loc main_arg1)) := by
  have h := where_read (W1 m ρ c) _ _ _ (heq_of_eq (W1_v12 m ρ c)) (heq_of_eq (W1_v13 m ρ c)) (heq_of_eq (W1_cst2 m ρ c))
  exact (eq_of_heq h).trans rfl

end Cert.KernelIdeal.KHostW

end
-- ==== Proof.KHost.lean ====
/-
  The idealized kernel program's host operations, read at the buffers its two grid regions use: what each region finds in its
  input arrays when it is entered, as the program's argument arrays, as the shared index and degree stages of the edge list
  (the reference program computes the same stages from the same edge list, and its stage functions name them here), and as
  what the first region leaves in its output.
-/
import proofs.«153504_j16999480558341_2_alg».proof.Proof.Gen.KernelIdeal.Frame
import proofs.«153504_j16999480558341_2_alg».proof.Proof.RefRead
import proofs.«153504_j16999480558341_2_alg».proof.Proof.KHostW

set_option maxRecDepth 16384

noncomputable section

namespace Cert.KernelIdeal.KHost

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The first region's entry -/

/-- No host operation before the first region writes the feature array: the region finds it as launched. -/
theorem entry0_x : V3 m ρ c main_arg0 = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results

/-- Nor the first weight. -/
theorem entry0_w : V3 m ρ c main_arg2 = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results

/-- Nor the first bias, the output weight, the output bias. -/
theorem W3_b1 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results
theorem W3_wfc : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results
theorem W3_bfc : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0, hostOps0_1, hostOps0_2]
  after_results

/-- The source endpoints followed by the self loops, as the reference's stage of the same edge list. -/
theorem W3_src : W3 m ρ c (Proc.devRef .tc main_v5)
    = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v5) = _
  dsimp only [hostOps0, hostOps0_1, hostOps0_2]
  after_results
  rfl

/-- The destination endpoints followed by the self loops, likewise. -/
theorem W3_dst : W3 m ρ c (Proc.devRef .tc main_v6)
    = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results
  rfl

/-- The first region finds the node factor as a column: the factor vector (the inverse square root of the in-degree where it
    is positive, zero elsewhere) recast to [100000, 1]. -/
theorem entry0_d : V3 m ρ c main_v15
    = shapeCast S100000x1 (Cert.ReferenceIdeal.ReadP.val_main_v14 (F := Ideal) (m ((c : Thread nD τ).loc main_arg1))) shapeCasts_S100000_S100000x1 := by
  have hD := Cert.KernelIdeal.KHostW.W2_v14 m ρ c
  show StableHlo.after hostOps0_2 (W2 m ρ c) (Proc.devRef .tc main_v15) = _
  generalize W2 m ρ c = V2 at hD ⊢
  dsimp only [hostOps0_2]
  after_results
  rw [hD]
  generalize Cert.ReferenceIdeal.ReadP.val_main_v14 (F := Ideal) (m ((c : Thread nD τ).loc main_arg1)) = d
  rfl

/-! ## Between the regions

The first region's arrays at its exit: each input as the region found it, the output at what the write-backs leave; every
other buffer as it was. -/

/-- At the first region's exit the feature array is as launched (an input window's array is not written). -/
theorem W4_x : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (entry0_x m ρ c)

/-- The factor column likewise. -/
theorem W4_d : W4 m ρ c (Proc.devRef .tc main_v15)
    = shapeCast S100000x1 (Cert.ReferenceIdeal.ReadP.val_main_v14 (F := Ideal) (m ((c : Thread nD τ).loc main_arg1))) shapeCasts_S100000_S100000x1 :=
  ((W4_arr m ρ c 2).trans (((dat0 (V3 m ρ) c).arrAt_in 2 rfl _).trans (A_eq0 (V3 m ρ) c 2))).trans (entry0_d m ρ c)

/-- The first region's output array holds what its write-backs leave. -/
theorem W4_out : W4 m ρ c (Proc.devRef .tc main_v16) = (dat0 (F := Ideal) (V3 m ρ) c).arrAt 3 cfg0.N :=
  W4_arr m ρ c 3

/-- The buffers the first region does not touch are as it was entered. -/
theorem W4_b1 : W4 m ρ c (Proc.devRef .tc main_arg3) = m ((c : Thread nD τ).loc main_arg3) :=
  (W4_of_ne m ρ c main_arg3 (by decide)).trans (W3_b1 m ρ c)
theorem W4_wfc : W4 m ρ c (Proc.devRef .tc main_arg4) = m ((c : Thread nD τ).loc main_arg4) :=
  (W4_of_ne m ρ c main_arg4 (by decide)).trans (W3_wfc m ρ c)
theorem W4_bfc : W4 m ρ c (Proc.devRef .tc main_arg5) = m ((c : Thread nD τ).loc main_arg5) :=
  (W4_of_ne m ρ c main_arg5 (by decide)).trans (W3_bfc m ρ c)
theorem W4_src : W4 m ρ c (Proc.devRef .tc main_v5)
    = Cert.ReferenceIdeal.ReadP.val_main_v3 (F := Ideal) (m ((c : Thread nD τ).loc main_arg1)) :=
  (W4_of_ne m ρ c main_v5 (by decide)).trans (W3_src m ρ c)
theorem W4_dst : W4 m ρ c (Proc.devRef .tc main_v6)
    = Cert.ReferenceIdeal.ReadP.val_main_v6 (F := Ideal) (m ((c : Thread nD τ).loc main_arg1)) :=
  (W4_of_ne m ρ c main_v6 (by decide)).trans (W3_dst m ρ c)

/-! ## The second region's entry -/

/-- The host operations between the regions write none of the arguments nor the factor column. -/
theorem entry1_x : V5 m ρ c main_arg0 = m ((c : Thread nD τ).loc main_arg0) := by
  have h := W4_x m ρ c
  show StableHlo.after hostOps1 (W4 m ρ c) (Proc.devRef .tc main_arg0) = _
  generalize W4 m ρ c = V4 at h ⊢
  dsimp only [hostOps1]
  after_results
  exact h

theorem entry1_b1 : V5 m ρ c main_arg3 = m ((c : Thread nD τ).loc main_arg3) := by
  have h := W4_b1 m ρ c
  show StableHlo.after hostOps1 (W4 m ρ c) (Proc.devRef .tc main_arg3) = _
  generalize W4 m ρ c = V4 at h ⊢
  dsimp only [hostOps1]
  after_results
  exact h

theorem entry1_bfc : V5 m ρ c main_arg5 = m ((c : Thread nD τ).loc main_arg5) := by
  have h := W4_bfc m ρ c
  show StableHlo.after hostOps1 (W4 m ρ c) (Proc.devRef .tc main_arg5) = _
  generalize W4 m ρ c = V4 at h ⊢
  dsimp only [hostOps1]
  after_results
  exact h

theorem entry1_d : V5 m ρ c main_v15
    = shapeCast S100000x1 (Cert.ReferenceIdeal.ReadP.val_main_v14 (F := Ideal) (m ((c : Thread nD τ).loc main_arg1))) shapeCasts_S100000_S100000x1 := by
  have h := W4_d m ρ c
  show StableHlo.after hostOps1 (W4 m ρ c) (Proc.devRef .tc main_v15) = _
  generalize W4 m ρ c = V4 at h ⊢
  dsimp only [hostOps1]
  after_results
  exact h

/-- The two halves of the output weight: rows 0 .. 127 and rows 128 .. 255 of the [256, 2] argument. -/
theorem entry1_w1 : V5 m ρ c main_v27
    = extractStridedSlice S128x2 ![0, 0] (m ((c : Thread nD τ).loc main_arg4)) slices_S256x2_S128x2_0_0 := by
  have h := W4_wfc m ρ c
  show StableHlo.after hostOps1 (W4 m ρ c) (Proc.devRef .tc main_v27) = _
  generalize W4 m ρ c = V4 at h ⊢
  dsimp only [hostOps1]
  after_results
  rw [h]

theorem entry1_w2 : V5 m ρ c main_v28
    = extractStridedSlice S128x2 ![128, 0] (m ((c : Thread nD τ).loc main_arg4)) slices_S256x2_S128x2_128_0 := by
  have h := W4_wfc m ρ c
  show StableHlo.after hostOps1 (W4 m ρ c) (Proc.devRef .tc main_v28) = _
  generalize W4 m ρ c = V4 at h ⊢
  dsimp only [hostOps1]
  after_results
  rw [h]

set_option maxHeartbeats 1000000 in
/-- The aggregate the second region finds: the scatter-add, at the destination endpoints, of the rows of the first region's
    output gathered at the (sign-normalised) source endpoints, onto the zero array. The index stages are the reference's, of the
    same edge list; the gathered array is what the first region's write-backs leave. -/
theorem entry1_agg : V5 m ρ c main_v26
    = Host.scatterAdd (F := Ideal) (φ := .f32) Cert.ReferenceIdeal.scatter_S100000x128_S1700000x1_S1700000x128_1_0_0_1
        (Cert.ReferenceIdeal.ReadP.val_main_v41 (F := Ideal))
        (Cert.ReferenceIdeal.ReadP.val_main_v42 (F := Ideal) (m ((c : Thread nD τ).loc main_arg1)))
        (Host.gather (α := Ideal .f32) Cert.ReferenceIdeal.gather_S100000x128_S1700000x1_S1700000x128_1_0_n_n_0_1_1128
          ((dat0 (F := Ideal) (V3 m ρ) c).arrAt 3 cfg0.N)
          (Cert.ReferenceIdeal.ReadP.val_main_v36 (F := Ideal) (m ((c : Thread nD τ).loc main_arg1)))) := by
  have hs := W4_src m ρ c
  have hd := W4_dst m ρ c
  have ho := W4_out m ρ c
  show StableHlo.after hostOps1 (W4 m ρ c) (Proc.devRef .tc main_v26) = _
  generalize W4 m ρ c = V4 at hs hd ho ⊢
  dsimp only [hostOps1]
  after_results
  rw [hs, hd, ho]
  generalize (dat0 (F := Ideal) (V3 m ρ) c).arrAt 3 cfg0.N = A
  unfold Cert.ReferenceIdeal.ReadP.val_main_v41 Cert.ReferenceIdeal.ReadP.val_main_cst_8 Cert.ReferenceIdeal.ReadP.val_main_v42
    Cert.ReferenceIdeal.ReadP.val_main_v36 Cert.ReferenceIdeal.ReadP.val_main_v35 Cert.ReferenceIdeal.ReadP.val_main_v32
    Cert.ReferenceIdeal.ReadP.val_main_v34 Cert.ReferenceIdeal.ReadP.val_main_v31 Cert.ReferenceIdeal.ReadP.val_main_v33
    Cert.ReferenceIdeal.ReadP.val_main_c_6 Cert.ReferenceIdeal.ReadP.val_main_c_7
  generalize Cert.ReferenceIdeal.ReadP.val_main_v3 (F := Ideal) (m ((c : Thread nD τ).loc main_arg1)) = s
  generalize Cert.ReferenceIdeal.ReadP.val_main_v6 (F := Ideal) (m ((c : Thread nD τ).loc main_arg1)) = t
  rfl

/-! ## The result -/

/-- The result array after the second region holds what its write-backs leave. -/
theorem result : W6 m ρ c (Proc.devRef .tc main_v29) = (dat1 (F := Ideal) (V5 m ρ) c).arrAt 7 cfg1.N :=
  W6_arr m ρ c 7

end Cert.KernelIdeal.KHost

end
-- ==== Proof.Spec.lean ====
/-
  The two-layer graph convolution, entry by entry, in the two arrangements the programs compute.

  Nodes are rows `n < 100000`; an edge list gives each edge a source row and a destination node. A node's factor `d n`
  is the inverse square root of its in-degree (zero for an isolated node). The first layer multiplies the features by a
  128 x 128 weight; the aggregate of a node sums, over the edges arriving at it, the source's transformed row scaled by
  both endpoint factors. One arrangement scales each transformed row by its own factor BEFORE the edges are walked and
  scales the aggregate by the destination's factor afterwards; the other scales every edge's message by the product of the
  two factors. The output layer multiplies the concatenation of the features and the rectified aggregate by a 256 x 2
  weight: as one sum over 256 columns, or as the sum of two 128-column products with the two halves of the weight.

  This module only names the entry-by-entry terms of the first arrangement's two dense stages; it imports no program.
-/
import Idealize.ShloMosaic.PureOps.Ideal
import Idealize.ShloMosaic.Lib.ValueIdx

noncomputable section

namespace Cert.Gcn

open Idealize.ShloMosaic Idealize.ShloMosaic.ValueIdx

/-- Row `r`, column `k` of the feature matrix times the first weight, scaled by the row's factor (a one-column array). -/
def xwS (x : (⟨2, ![100000, 128]⟩ : Shape).Idx → EReal) (w : (⟨2, ![128, 128]⟩ : Shape).Idx → EReal)
    (d : (⟨2, ![100000, 1]⟩ : Shape).Idx → EReal) (r : Fin 100000) (k : Fin 128) : EReal :=
  (∑ q : Fin 128, x (ix2 r q) * w (ix2 q k)) * d (ix2 r (0 : Fin 1))

/-- Row `n`, class `c` of the output layer in the split arrangement: the features times the upper half of the weight,
    plus the rectified (aggregate times the node's factor, plus bias) times the lower half, plus the output bias. The zero of the
    rectifier is kept as the float word both programs spell. -/
def outK (x agg : (⟨2, ![100000, 128]⟩ : Shape).Idx → EReal) (d : (⟨2, ![100000, 1]⟩ : Shape).Idx → EReal)
    (b1 : (⟨1, ![128]⟩ : Shape).Idx → EReal) (w1 w2 : (⟨2, ![128, 2]⟩ : Shape).Idx → EReal)
    (bfc : (⟨1, ![2]⟩ : Shape).Idx → EReal) (n : Fin 100000) (c : Fin 2) : EReal :=
  ((∑ q : Fin 128, x (ix2 n q) * w1 (ix2 q c))
    + (∑ q : Fin 128, max (agg (ix2 n q) * d (ix2 n (0 : Fin 1)) + b1 (ix1 q)) (Ideal.ofBits .f32 0x00000000#32) * w2 (ix2 q c)))
  + bfc (ix1 c)

end Cert.Gcn

end
-- ==== Proof.LibKeepdims.lean ====
/-
  Two layout operations read at an index, in the column ("keepdims") forms a row reduction that keeps its axis
  produces: a vector of length `a` recast as an `[a, 1]` column, and an `[a, 1]` column broadcast along its unit
  axis to `[a, b]`.  Both are stated over indices built from literal coordinates.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` vector cast to an `[a, 1]` column reads, at `(i, u)`, the vector at `i`, whatever the unit
    coordinate `u`: both positions have the same row-major offset `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KReg0.lean ====
/-
  The first dense stage of the graph convolution, read off the pipeline's proof data: the array the first region
  writes holds, at row r and column k, the r-th feature row times the k-th weight column, scaled by the row's factor.

  Three steps. One block's arithmetic at an entry: the product of a [2000,128] block by the [128,128] weight, accumulated
  from zero, is the sum over the contracted coordinate of the entries' products, and the factor column is broadcast along
  its unit axis. What one grid point writes back: point t holds rows 2000 t .. 2000 t + 1999 of the features and of the
  factor column and the whole weight, so its output block is rows 2000 t .. 2000 t + 1999 of the target. The fifty row
  blocks tile the 100000 rows (row r lies in block r / 2000), so the array after the last point is the target everywhere.
-/
import proofs.«153504_j16999480558341_2_alg».proof.Proof.Gen.KernelIdeal.Frame
import proofs.«153504_j16999480558341_2_alg».proof.Proof.Spec
import proofs.«153504_j16999480558341_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KReg0

open Cert.KernelIdeal Cert.KernelIdeal.Gen Idealize.ShloMosaic Idealize.ShloMosaic.ValueIdx Idealize.ShloMosaic.TcCoe
open Idealize.ShloMosaic.Pipeline (Dat)

/-! ## One block's arithmetic at an entry -/

/-- A [2000,128] block times a [128,128] matrix, accumulated from the zero splat, at (p, k): the sum over the contracted
    coordinate q of the (p, q) entry times the (q, k) entry. -/
theorem matmul_zero_apply {φ₁ φ₂ : FTy} (A : FVec Ideal S2000x128 φ₁) (B : FVec Ideal S128x128 φ₂) (p : Fin 2000) (k : Fin 128) :
    matmul dot_S2000x128_S128x128_S2000x128_1_0_0_1_n_n none A B (constant (F := Ideal) S2000x128 .f32 0x00000000#32) (ix2 p k)
      = ∑ q : Fin 128, A (ix2 p q) * B (ix2 q k) := by
  show FloatOps.matmul _ none A B _ (ix2 p k) = _
  rw [Ideal.matmul_constant_zero_apply,
    ← Equiv.sum_comp (contrEquiv1 dot_S2000x128_S128x128_S2000x128_1_0_0_1_n_n 128 rfl rfl).symm]
  refine Finset.sum_congr rfl fun q _ => ?_
  have cq := contrEquiv1_symm_val dot_S2000x128_S128x128_S2000x128_1_0_0_1_n_n 128 rfl rfl q
  have hl : dot_S2000x128_S128x128_S2000x128_1_0_0_1_n_n.lhsIdx (ix2 p k)
      ((contrEquiv1 dot_S2000x128_S128x128_S2000x128_1_0_0_1_n_n 128 rfl rfl).symm q) = ix2 p q := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact cq
  have hr : dot_S2000x128_S128x128_S2000x128_1_0_0_1_n_n.rhsIdx (ix2 p k)
      ((contrEquiv1 dot_S2000x128_S128x128_S2000x128_1_0_0_1_n_n 128 rfl rfl).symm q) = ix2 q k := by
    funext ax; apply Fin.ext
    match ax with
    | ⟨0, _⟩ => simp [DotDims.rhsIdx, dot_S2000x128_S128x128_S2000x128_1_0_0_1_n_n]; exact cq
    | ⟨1, _⟩ => simp [DotDims.rhsIdx, dot_S2000x128_S128x128_S2000x128_1_0_0_1_n_n]; rfl
  rw [hl, hr]

/-- The body's stored value at (p, k), from the three loaded blocks: the block product's entry times the factor of row p
    (the narrowing casts are the identity on extended reals, the same-shape cast is the identity, and the [2000,1] column
    broadcast along its unit axis reads the column at row p). -/
theorem pay_apply (x0 : Vec Ideal S2000x128 .f32) (x1 : Vec Ideal S128x128 .f32) (x2 : Vec Ideal S2000x1 .f32) (p : Fin 2000) (k : Fin 128) :
    k0_pay1 (F := Ideal) x0 x1 x2 (ix2 p k) = (∑ q : Fin 128, x0 (ix2 p q) * x1 (ix2 q k)) * x2 (ix2 p (0 : Fin 1)) := by
  unfold k0_pay1
  show matmul dot_S2000x128_S128x128_S2000x128_1_0_0_1_n_n none (truncf .bf16 x0 bitsLt_bf16_f32) (truncf .bf16 x1 bitsLt_bf16_f32)
      (constant (F := Ideal) S2000x128 .f32 0x00000000#32) (ix2 p k)
    * broadcastTo S2000x128 (shapeCast S2000x1 x2 shapeCasts_S2000x1_S2000x1) broadcasts_S2000x1_S2000x128 (ix2 p k) = _
  rw [matmul_zero_apply, Cert.LibKeepdims.broadcastTo_a1_ab_apply, shapeCast_self]
  rfl

/-! ## What one grid point reads and writes -/

variable (V : (c : Dev nD) → (b : Ref sig .tc) → Buf (Elt Ideal) ((c : Thread nD τ).loc b))

/-- The target as one function of the array's index: entry (r, k) of the scaled product, from the three input arrays as the
    region finds them. -/
abbrev target (c : Dev nD) : S100000x128.Idx → EReal :=
  fun i => Cert.Gcn.xwS (V c main_arg0) (V c main_arg2) (V c main_v15) (i 0) (i 1)

theorem zero_offsets : (![0, 0] : Fin 2 → Nat) = fun _ => 0 := funext fun a => by fin_cases a <;> rfl

/-- The block index maps at grid point t: the feature rows, the factor column and the output move together, block t on the
    row axis and block 0 on the other; the weight stays at block (0, 0). Decided over the fifty points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point t's feature block at (p, q) is the feature array at row 2000 t + p, column q. -/
theorem features_block (c : Dev nD) (t : Fin cfg0.N) (p : Fin 2000) (q : Fin 128) (r : Fin 100000) (hr : r.val = t.val * 2000 + p.val) :
    (iblk0 V c 0 t : Vec Ideal S2000x128 .f32) (ix2 p q) = (V c main_arg0 : S100000x128.Idx → EReal) (ix2 r q) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * q.val = q.val; rw [e1]; omega

/-- Point t's weight block is the whole weight. -/
theorem weight_block (c : Dev nD) (t : Fin cfg0.N) (q : Fin 128) (k : Fin 128) :
    (iblk0 V c 1 t : Vec Ideal S128x128 .f32) (ix2 q k) = (V c main_arg2 : S128x128.Idx → EReal) (ix2 q k) := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t (0 : Fin 2) * 128 + 1 * q.val = q.val; rw [e0]; omega
  | ⟨1, _⟩ => show win0_1.index t (1 : Fin 2) * 128 + 1 * k.val = k.val; rw [e1]; omega

/-- Point t's factor block at (p, 0) is the factor column at row 2000 t + p. -/
theorem factor_block (c : Dev nD) (t : Fin cfg0.N) (p : Fin 2000) (r : Fin 100000) (hr : r.val = t.val * 2000 + p.val) :
    (iblk0 V c 2 t : Vec Ideal S2000x1 .f32) (ix2 p (0 : Fin 1)) = (V c main_v15 : S100000x1.Idx → EReal) (ix2 r (0 : Fin 1)) := by
  obtain ⟨-, -, -, -, e0, e1, -⟩ := block_indices t
  unfold iblk0
  rw [View.read_apply]
  show V c main_v15 _ = V c main_v15 _
  congr 1
  funext a
  apply Fin.ext
  match a with
  | ⟨0, _⟩ => show win0_2.index t (0 : Fin 2) * 2000 + 1 * p.val = r.val; rw [e0, hr]; omega
  | ⟨1, _⟩ => show win0_2.index t (1 : Fin 2) * 1 + 1 * 0 = 0; rw [e1]

/-- What point t writes back is rows 2000 t .. 2000 t + 1999 of the target. -/
theorem flushed_eq (c : Dev nD) (t : Fin cfg0.N) :
    (dat0 (F := Ideal) V c).flushed 3 t = ((cfg0.win 3).blk t).view.read (Elt Ideal) (target V c) := by
  show (cfg0.win 3).cut (grid0.coords t) ((dat0 (F := Ideal) V c).after 3 t) = _
  rw [after0_3]
  unfold out0_3
  rw [View.canon_unit_zero zero_offsets]
  simp only [View.ld_unit_zero (S := S2000x128) zero_offsets, View.ld_unit_zero (S := S128x128) zero_offsets,
    View.ld_unit_zero (S := S2000x1) zero_offsets]
  obtain ⟨-, -, -, -, -, -, e0, e1⟩ := block_indices t
  have ht : t.val < 50 := Nat.lt_of_lt_of_eq t.isLt N_0
  funext j
  obtain ⟨p, k, rfl⟩ : ∃ (p : Fin 2000) (k : Fin 128), j = ix2 p k := ⟨j 0, j 1, eq_ix2 j⟩
  have hrow : t.val * 2000 + p.val < 100000 := by have := p.isLt; omega
  have hemb : ((cfg0.win 3).blk t).view.emb (ix2 p k) = (ix2 (⟨t.val * 2000 + p.val, hrow⟩ : Fin 100000) k : S100000x128.Idx) := by
    funext a
    apply Fin.ext
    match a with
    | ⟨0, _⟩ => show win0_3.index t (0 : Fin 2) * 2000 + 1 * p.val = t.val * 2000 + p.val; rw [e0]; omega
    | ⟨1, _⟩ => show win0_3.index t (1 : Fin 2) * 128 + 1 * k.val = k.val; rw [e1]; omega
  show k0_pay1 (F := Ideal) (iblk0 V c 0 t) (iblk0 V c 1 t) (iblk0 V c 2 t) (ix2 p k) = target V c (((cfg0.win 3).blk t).view.emb (ix2 p k))
  rw [hemb]
  refine (pay_apply (iblk0 V c 0 t) (iblk0 V c 1 t) (iblk0 V c 2 t) p k).trans ?_
  show _ = Cert.Gcn.xwS (V c main_arg0) (V c main_arg2) (V c main_v15) (⟨t.val * 2000 + p.val, hrow⟩ : Fin 100000) k
  unfold Cert.Gcn.xwS
  rw [factor_block V c t p ⟨t.val * 2000 + p.val, hrow⟩ rfl]
  refine congrArg (· * _) (Finset.sum_congr rfl fun q _ => ?_)
  rw [features_block V c t p q ⟨t.val * 2000 + p.val, hrow⟩ rfl, weight_block V c t q k]

/-! ## The fifty row blocks tile the array -/

/-- An index of the array is in point t's output block iff each coordinate is in the block's range on its axis. -/
theorem mem_block (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v16).slice (win0_3.rect t)).set ↔ _
  rw [View.set_slice_whole, Rect.mem_set_unit]
  exact Iff.rfl

/-- Row r lies in the block of point r / 2000, which is written back. -/
theorem covered (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, e0, e1⟩ := block_indices t
  have e0' : win0_3.index t (0 : Fin 2) = (i 0).val / 2000 := e0
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; rw [e0']; omega
  | ⟨1, _⟩ => show win0_3.index t (1 : Fin 2) * 128 ≤ (i 1).val ∧ (i 1).val < win0_3.index t (1 : Fin 2) * 128 + 128; rw [e1]; omega

/-! ## The array after the region -/

/-- The output array after the last point is the target, as one function of its index. -/
theorem final0_fun (c : Dev nD) : (dat0 (F := Ideal) V c).arrAt 3 cfg0.N = target V c :=
  (dat0 (F := Ideal) V c).arrAt_eq_of_cover 3 (target V c) (fun t _ => flushed_eq V c t) covered

/-- Entry by entry: row r, column k of the first region's output is the r-th feature row times the k-th weight column,
    scaled by the factor of row r. -/
theorem final0 (c : Dev nD) (r : Fin 100000) (k : Fin 128) :
    (dat0 (F := Ideal) V c).arrAt 3 cfg0.N (ix2 r k) = Cert.Gcn.xwS (V c main_arg0) (V c main_arg2) (V c main_v15) r k := by
  rw [final0_fun]

end Cert.KernelIdeal.KReg0

end
-- ==== Proof.KReg1.lean ====
/-
  The output layer of the graph convolution, read off the pipeline's proof data: the array the second region writes holds, at
  node n and class c, the features times the upper half of the output weight, plus the rectified hidden row (the aggregate
  scaled by the node's factor, plus the first bias) times the lower half, plus the output bias.

  Three steps, as for the first stage. One block's arithmetic at an entry: the hidden row at (p, q) is the maximum of
  aggregate times factor plus bias and the zero word; each [2000,128] by [128,2] product accumulated from zero is the sum
  over the contracted coordinate; the two biases are a row broadcast over the 2000 rows. What one grid point writes back:
  point t holds rows 2000 t .. 2000 t + 1999 of the features, the aggregate and the factor column, and the whole of the two
  weight halves and the two biases, so its output block is rows 2000 t .. 2000 t + 1999 of the target. The fifty row blocks
  tile the 100000 nodes (node n lies in block n / 2000), so the array after the last point is the target everywhere.
-/
import proofs.«153504_j16999480558341_2_alg».proof.Proof.Gen.KernelIdeal.Frame
import proofs.«153504_j16999480558341_2_alg».proof.Proof.Spec
import proofs.«153504_j16999480558341_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KReg1

open Cert.KernelIdeal Cert.KernelIdeal.Gen Idealize.ShloMosaic Idealize.ShloMosaic.ValueIdx Idealize.ShloMosaic.TcCoe
open Idealize.ShloMosaic.Pipeline (Dat)

/-! ## One block's arithmetic at an entry -/

/-- A [2000,128] block times a [128,2] matrix, accumulated from the zero splat, at (p, c): the sum over the contracted
    coordinate q of the (p, q) entry times the (q, c) entry. -/
theorem matmul_zero_apply {φ₁ φ₂ : FTy} (A : FVec Ideal S2000x128 φ₁) (B : FVec Ideal S128x2 φ₂) (p : Fin 2000) (k : Fin 2) :
    matmul dot_S2000x128_S128x2_S2000x2_1_0_0_1_n_n none A B (constant (F := Ideal) S2000x2 .f32 0x00000000#32) (ix2 p k)
      = ∑ q : Fin 128, A (ix2 p q) * B (ix2 q k) := by
  show FloatOps.matmul _ none A B _ (ix2 p k) = _
  rw [Ideal.matmul_constant_zero_apply,
    ← Equiv.sum_comp (contrEquiv1 dot_S2000x128_S128x2_S2000x2_1_0_0_1_n_n 128 rfl rfl).symm]
  refine Finset.sum_congr rfl fun q _ => ?_
  have cq := contrEquiv1_symm_val dot_S2000x128_S128x2_S2000x2_1_0_0_1_n_n 128 rfl rfl q
  have hl : dot_S2000x128_S128x2_S2000x2_1_0_0_1_n_n.lhsIdx (ix2 p k)
      ((contrEquiv1 dot_S2000x128_S128x2_S2000x2_1_0_0_1_n_n 128 rfl rfl).symm q) = ix2 p q := by
    funext ax; apply Fin.ext
    match ax with
    | ⟨0, _⟩ => simp [DotDims.lhsIdx, dot_S2000x128_S128x2_S2000x2_1_0_0_1_n_n]; rfl
    | ⟨1, _⟩ => simp [DotDims.lhsIdx, dot_S2000x128_S128x2_S2000x2_1_0_0_1_n_n]; exact cq
  have hr : dot_S2000x128_S128x2_S2000x2_1_0_0_1_n_n.rhsIdx (ix2 p k)
      ((contrEquiv1 dot_S2000x128_S128x2_S2000x2_1_0_0_1_n_n 128 rfl rfl).symm q) = ix2 q k := by
    funext ax; apply Fin.ext
    match ax with
    | ⟨0, _⟩ => simp [DotDims.rhsIdx, dot_S2000x128_S128x2_S2000x2_1_0_0_1_n_n]; exact cq
    | ⟨1, _⟩ => simp [DotDims.rhsIdx, dot_S2000x128_S128x2_S2000x2_1_0_0_1_n_n]; rfl
  rw [hl, hr]

/-- The rectified hidden block at (p, q): the aggregate's entry times the factor of row p (the [2000,1] column broadcast
    along its unit axis), plus the first bias at q (the [128] vector as one row broadcast over the rows), against the zero
    word. -/
theorem hidden_apply (a : Vec Ideal S2000x128 .f32) (d : Vec Ideal S2000x1 .f32) (b : Vec Ideal S128 .f32) (p : Fin 2000) (q : Fin 128) :
    maximumf (addf (mulf a (broadcastTo S2000x128 d broadcasts_S2000x1_S2000x128))
        (broadcastTo S2000x128 (shapeCast S1x128 b shapeCasts_S128_S1x128) broadcasts_S1x128_S2000x128))
      (broadcast S2000x128 (Scalar.ofBits (F := Ideal) .f32 0x00000000#32)) (ix2 p q)
      = max (a (ix2 p q) * d (ix2 p (0 : Fin 1)) + b (ix1 q)) (Ideal.ofBits .f32 0x00000000#32) := by
  show max (a (ix2 p q) * broadcastTo S2000x128 d broadcasts_S2000x1_S2000x128 (ix2 p q)
      + broadcastTo S2000x128 (shapeCast S1x128 b shapeCasts_S128_S1x128) broadcasts_S1x128_S2000x128 (ix2 p q)) _ = _
  rw [Cert.LibKeepdims.broadcastTo_a1_ab_apply, broadcastTo_1b_ab_apply, shapeCast_a_1a_apply]
  rfl

/-- The body's stored value at (p, c), from the seven loaded blocks (aggregate, factor column, first bias, features, the two
    weight halves, output bias): the two block products' entries added, plus the output bias at c (the narrowing casts are
    the identity on extended reals, the same-shape casts are the identity). -/
theorem pay_apply (a : Vec Ideal S2000x128 .f32) (d : Vec Ideal S2000x1 .f32) (b : Vec Ideal S128 .f32) (x : Vec Ideal S2000x128 .f32)
    (w1 w2 : Vec Ideal S128x2 .f32) (bo : Vec Ideal S2 .f32) (p : Fin 2000) (k : Fin 2) :
    k1_pay1 (F := Ideal) a d b x w1 w2 bo (ix2 p k)
      = ((∑ q : Fin 128, x (ix2 p q) * w1 (ix2 q k))
          + (∑ q : Fin 128, max (a (ix2 p q) * d (ix2 p (0 : Fin 1)) + b (ix1 q)) (Ideal.ofBits .f32 0x00000000#32) * w2 (ix2 q k)))
        + bo (ix1 k) := by
  unfold k1_pay1
  show (matmul dot_S2000x128_S128x2_S2000x2_1_0_0_1_n_n none (truncf .bf16 x bitsLt_bf16_f32)
          (truncf .bf16 (shapeCast S128x2 w1 shapeCasts_S128x2_S128x2) bitsLt_bf16_f32) (constant (F := Ideal) S2000x2 .f32 0x00000000#32) (ix2 p k)
        + matmul dot_S2000x128_S128x2_S2000x2_1_0_0_1_n_n none (truncf .bf16 _ bitsLt_bf16_f32)
          (truncf .bf16 (shapeCast S128x2 w2 shapeCasts_S128x2_S128x2) bitsLt_bf16_f32) (constant (F := Ideal) S2000x2 .f32 0x00000000#32) (ix2 p k))
      + broadcastTo S2000x2 (shapeCast S1x2 bo shapeCasts_S2_S1x2) broadcasts_S1x2_S2000x2 (ix2 p k) = _
  rw [matmul_zero_apply, matmul_zero_apply, broadcastTo_1b_ab_apply, shapeCast_a_1a_apply]
  simp only [shapeCast_self]
  refine congrArg (· + _) (congrArg (_ + ·) (Finset.sum_congr rfl fun q _ => ?_))
  exact congrArg (· * w2 (ix2 q k)) (hidden_apply a d b p q)

/-! ## What one grid point reads and writes -/

variable (V : (c : Dev nD) → (b : Ref sig .tc) → Buf (Elt Ideal) ((c : Thread nD τ).loc b))

/-- The target as one function of the array's index: entry (n, c) of the output layer, from the seven input arrays as the
    region finds them. -/
abbrev target (c : Dev nD) : S100000x2.Idx → EReal :=
  fun i => Cert.Gcn.outK (V c main_arg0) (V c main_v26) (V c main_v15) (V c main_arg3) (V c main_v27) (V c main_v28) (V c main_arg5) (i 0) (i 1)

theorem zero_offsets2 : (![0, 0] : Fin 2 → Nat) = fun _ => 0 := funext fun a => by fin_cases a <;> rfl
theorem zero_offsets1 : (![0] : Fin 1 → Nat) = fun _ => 0 := funext fun a => by fin_cases a; rfl

/-- The block index maps at grid point t: the features, the aggregate, the factor column and the output move together,
    block t on the row axis and block 0 on the other; the first bias, the two weight halves and the output bias stay at
    their one block. Decided over the fifty points. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Point t's feature block at (p, q) is the feature array at row 2000 t + p, column q. -/
theorem features_block (c : Dev nD) (t : Fin cfg1.N) (p : Fin 2000) (q : Fin 128) (r : Fin 100000) (hr : r.val = t.val * 2000 + p.val) :
    (iblk1 V c 0 t : Vec Ideal S2000x128 .f32) (ix2 p q) = (V c main_arg0 : S100000x128.Idx → EReal) (ix2 r q) := by
  obtain ⟨e0, e1, -⟩ := block_indices t
  unfold iblk1
  rw [View.read_apply]
  show V c main_arg0 _ = V c main_arg0 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * q.val = q.val; rw [e1]; omega

/-- Point t's aggregate block at (p, q) is the aggregate at row 2000 t + p, column q. -/
theorem aggregate_block (c : Dev nD) (t : Fin cfg1.N) (p : Fin 2000) (q : Fin 128) (r : Fin 100000) (hr : r.val = t.val * 2000 + p.val) :
    (iblk1 V c 1 t : Vec Ideal S2000x128 .f32) (ix2 p q) = (V c main_v26 : S100000x128.Idx → EReal) (ix2 r q) := by
  obtain ⟨-, -, e0, e1, -⟩ := block_indices t
  unfold iblk1
  rw [View.read_apply]
  show V c main_v26 _ = V c main_v26 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 128 + 1 * q.val = q.val; rw [e1]; omega

/-- Point t's factor block at (p, 0) is the factor column at row 2000 t + p. -/
theorem factor_block (c : Dev nD) (t : Fin cfg1.N) (p : Fin 2000) (r : Fin 100000) (hr : r.val = t.val * 2000 + p.val) :
    (iblk1 V c 2 t : Vec Ideal S2000x1 .f32) (ix2 p (0 : Fin 1)) = (V c main_v15 : S100000x1.Idx → EReal) (ix2 r (0 : Fin 1)) := by
  obtain ⟨-, -, -, -, e0, e1, -⟩ := block_indices t
  unfold iblk1
  rw [View.read_apply]
  show V c main_v15 _ = V c main_v15 _
  congr 1
  funext a
  apply Fin.ext
  match a with
  | ⟨0, _⟩ => show win1_2.index t (0 : Fin 2) * 2000 + 1 * p.val = r.val; rw [e0, hr]; omega
  | ⟨1, _⟩ => show win1_2.index t (1 : Fin 2) * 1 + 1 * 0 = 0; rw [e1]

/-- Point t's first-bias block is the whole bias vector. -/
theorem bias_block (c : Dev nD) (t : Fin cfg1.N) (q : Fin 128) :
    (iblk1 V c 3 t : Vec Ideal S128 .f32) (ix1 q) = (V c main_arg3 : S128.Idx → EReal) (ix1 q) := by
  obtain ⟨-, -, -, -, -, -, e0, -⟩ := block_indices t
  unfold iblk1
  rw [View.read_apply]
  show V c main_arg3 _ = V c main_arg3 _
  congr 1
  funext a
  apply Fin.ext
  match a with
  | ⟨0, _⟩ => show win1_3.index t (0 : Fin 1) * 128 + 1 * q.val = q.val; rw [e0]; omega

/-- Point t's block of the upper weight half is the whole of it. -/
theorem upper_weight_block (c : Dev nD) (t : Fin cfg1.N) (q : Fin 128) (k : Fin 2) :
    (iblk1 V c 4 t : Vec Ideal S128x2 .f32) (ix2 q k) = (V c main_v27 : S128x2.Idx → EReal) (ix2 q k) := by
  obtain ⟨-, -, -, -, -, -, -, e0, e1, -⟩ := block_indices t
  unfold iblk1
  rw [View.read_apply]
  show V c main_v27 _ = V c main_v27 _
  congr 1
  funext a
  apply Fin.ext
  match a with
  | ⟨0, _⟩ => show win1_4.index t (0 : Fin 2) * 128 + 1 * q.val = q.val; rw [e0]; omega
  | ⟨1, _⟩ => show win1_4.index t (1 : Fin 2) * 2 + 1 * k.val = k.val; rw [e1]; omega

/-- Point t's block of the lower weight half is the whole of it. -/
theorem lower_weight_block (c : Dev nD) (t : Fin cfg1.N) (q : Fin 128) (k : Fin 2) :
    (iblk1 V c 5 t : Vec Ideal S128x2 .f32) (ix2 q k) = (V c main_v28 : S128x2.Idx → EReal) (ix2 q k) := by
  obtain ⟨-, -, -, -, -, -, -, -, -, e0, e1, -⟩ := block_indices t
  unfold iblk1
  rw [View.read_apply]
  show V c main_v28 _ = V c main_v28 _
  congr 1
  funext a
  apply Fin.ext
  match a with
  | ⟨0, _⟩ => show win1_5.index t (0 : Fin 2) * 128 + 1 * q.val = q.val; rw [e0]; omega
  | ⟨1, _⟩ => show win1_5.index t (1 : Fin 2) * 2 + 1 * k.val = k.val; rw [e1]; omega

/-- Point t's output-bias block is the whole bias vector. -/
theorem out_bias_block (c : Dev nD) (t : Fin cfg1.N) (k : Fin 2) :
    (iblk1 V c 6 t : Vec Ideal S2 .f32) (ix1 k) = (V c main_arg5 : S2.Idx → EReal) (ix1 k) := by
  obtain ⟨-, -, -, -, -, -, -, -, -, -, -, e0, -⟩ := block_indices t
  unfold iblk1
  rw [View.read_apply]
  show V c main_arg5 _ = V c main_arg5 _
  congr 1
  funext a
  apply Fin.ext
  match a with
  | ⟨0, _⟩ => show win1_6.index t (0 : Fin 1) * 2 + 1 * k.val = k.val; rw [e0]; omega

/-- What point t writes back is rows 2000 t .. 2000 t + 1999 of the target. -/
theorem flushed_eq (c : Dev nD) (t : Fin cfg1.N) :
    (dat1 (F := Ideal) V c).flushed 7 t = ((cfg1.win 7).blk t).view.read (Elt Ideal) (target V c) := by
  show (cfg1.win 7).cut (grid1.coords t) ((dat1 (F := Ideal) V c).after 7 t) = _
  rw [after1_7]
  unfold out1_7
  rw [View.canon_unit_zero zero_offsets2]
  simp only [View.ld_unit_zero (S := S2000x128) zero_offsets2, View.ld_unit_zero (S := S2000x1) zero_offsets2,
    View.ld_unit_zero (S := S128) zero_offsets1, View.ld_unit_zero (S := S128x2) zero_offsets2,
    View.ld_unit_zero (S := S2) zero_offsets1]
  obtain ⟨-, -, -, -, -, -, -, -, -, -, -, -, e0, e1⟩ := block_indices t
  have ht : t.val < 50 := Nat.lt_of_lt_of_eq t.isLt N_1
  funext j
  obtain ⟨p, k, rfl⟩ : ∃ (p : Fin 2000) (k : Fin 2), j = ix2 p k := ⟨j 0, j 1, eq_ix2 j⟩
  have hrow : t.val * 2000 + p.val < 100000 := by have := p.isLt; omega
  have hemb : ((cfg1.win 7).blk t).view.emb (ix2 p k) = (ix2 (⟨t.val * 2000 + p.val, hrow⟩ : Fin 100000) k : S100000x2.Idx) := by
    funext a
    apply Fin.ext
    match a with
    | ⟨0, _⟩ => show win1_7.index t (0 : Fin 2) * 2000 + 1 * p.val = t.val * 2000 + p.val; rw [e0]; omega
    | ⟨1, _⟩ => show win1_7.index t (1 : Fin 2) * 2 + 1 * k.val = k.val; rw [e1]; omega
  show k1_pay1 (F := Ideal) (iblk1 V c 1 t) (iblk1 V c 2 t) (iblk1 V c 3 t) (iblk1 V c 0 t) (iblk1 V c 4 t) (iblk1 V c 5 t) (iblk1 V c 6 t) (ix2 p k)
    = target V c (((cfg1.win 7).blk t).view.emb (ix2 p k))
  rw [hemb]
  refine (pay_apply (iblk1 V c 1 t) (iblk1 V c 2 t) (iblk1 V c 3 t) (iblk1 V c 0 t) (iblk1 V c 4 t) (iblk1 V c 5 t) (iblk1 V c 6 t) p k).trans ?_
  show _ = Cert.Gcn.outK (V c main_arg0) (V c main_v26) (V c main_v15) (V c main_arg3) (V c main_v27) (V c main_v28) (V c main_arg5)
    (⟨t.val * 2000 + p.val, hrow⟩ : Fin 100000) k
  unfold Cert.Gcn.outK
  rw [out_bias_block V c t k, factor_block V c t p ⟨t.val * 2000 + p.val, hrow⟩ rfl]
  refine congrArg (· + _) (congrArg₂ (· + ·) (Finset.sum_congr rfl fun q _ => ?_) (Finset.sum_congr rfl fun q _ => ?_))
  · rw [features_block V c t p q ⟨t.val * 2000 + p.val, hrow⟩ rfl, upper_weight_block V c t q k]
  · rw [aggregate_block V c t p q ⟨t.val * 2000 + p.val, hrow⟩ rfl, bias_block V c t q, lower_weight_block V c t q k]

/-! ## The fifty row blocks tile the array -/

/-- An index of the array is in point t's output block iff each coordinate is in the block's range on its axis. -/
theorem mem_block (t : Fin cfg1.N) (i : S100000x2.Idx) :
    i ∈ ((cfg1.win 7).blk t).view.set ↔ ∀ a : Fin 2, win1_7.index t a * S2000x2.size a ≤ (i a).val ∧ (i a).val < win1_7.index t a * S2000x2.size a + S2000x2.size a := by
  show i ∈ ((View.whole main_v29).slice (win1_7.rect t)).set ↔ _
  rw [View.set_slice_whole, Rect.mem_set_unit]
  exact Iff.rfl

/-- Node n lies in the block of point n / 2000, which is written back. -/
theorem covered (i : S100000x2.Idx) : ∃ t : Fin cfg1.N, (cfg1.win 7).flush t = true ∧ i ∈ ((cfg1.win 7).blk t).view.set := by
  have hi0 : (i 0).val < 100000 := (i 0).isLt
  have hi1 : (i 1).val < 2 := (i 1).isLt
  have hN : cfg1.N = 50 := N_1
  let t : Fin cfg1.N := ⟨(i 0).val / 2000, by rw [hN]; omega⟩
  obtain ⟨-, -, -, -, -, -, -, -, -, -, -, -, e0, e1⟩ := block_indices t
  have e0' : win1_7.index t (0 : Fin 2) = (i 0).val / 2000 := e0
  refine ⟨t, flush1_7 t, ?_⟩
  rw [mem_block]
  intro a
  match a with
  | ⟨0, _⟩ => show win1_7.index t (0 : Fin 2) * 2000 ≤ (i 0).val ∧ (i 0).val < win1_7.index t (0 : Fin 2) * 2000 + 2000; rw [e0']; omega
  | ⟨1, _⟩ => show win1_7.index t (1 : Fin 2) * 2 ≤ (i 1).val ∧ (i 1).val < win1_7.index t (1 : Fin 2) * 2 + 2; rw [e1]; omega

/-! ## The array after the region -/

/-- The output array after the last point is the target, as one function of its index. -/
theorem final1_fun (c : Dev nD) : (dat1 (F := Ideal) V c).arrAt 7 cfg1.N = target V c :=
  (dat1 (F := Ideal) V c).arrAt_eq_of_cover 7 (target V c) (fun t _ => flushed_eq V c t) covered

/-- Entry by entry: node n, class c of the second region's output is the features times the upper weight half, plus the
    rectified hidden row times the lower half, plus the output bias. -/
theorem final1 (c : Dev nD) (n : Fin 100000) (cc : Fin 2) :
    (dat1 (F := Ideal) V c).arrAt 7 cfg1.N (ix2 n cc)
      = Cert.Gcn.outK (V c main_arg0) (V c main_v26) (V c main_v15) (V c main_arg3) (V c main_v27) (V c main_v28) (V c main_arg5) n cc := by
  rw [final1_fun]

end Cert.KernelIdeal.KReg1

end
-- ==== Proof.RefVal.lean ====
import proofs.«153504_j16999480558341_2_alg».proof.Proof.RefRead
import Idealize.ShloMosaic.Lib.Pipeline.Value
import Idealize.ShloMosaic.Lib.ValueIdx
import Idealize.ShloMosaic.PureOps.Ideal.Laws

/-! The reference's result at one output index (n, cc), in exact arithmetic.

It is the sum over the 256 columns k of the concatenated row entry (n, k) times the last matrix's entry (k, cc), plus the
last bias entry cc. The concatenated row is the feature (n, k) for k below 128 and, from 128 on, the larger of zero and the
aggregate at (n, k − 128) plus the first bias entry k − 128. The aggregate at an index is zero plus the sum of the update
entries whose result index is that index; an update entry is the gathered entry of the product of the features with the
first matrix times the product of the two gathered normalisation factors. The normalisation vector, that product, the four
index columns, and the gathers' operand index and the scatter's result index are left as they are named. -/

noncomputable section

open scoped BigOperators

namespace Cert.ReferenceIdeal.RefVal

open Cert.ReferenceIdeal Cert.ReferenceIdeal.ReadP Cert.ReferenceIdeal.Gen Idealize.ShloMosaic Idealize.ShloMosaic.ValueIdx

/-- one update entry of the second scatter: the gathered xw row entry times the product of the two gathered factors -/
def msg (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (j : S1700000x128.Idx) : EReal :=
  val_main_v30 (F := Ideal) x0 x2 (gather_S100000x128_S1700000x1_S1700000x128_1_0_n_n_0_1_1128.operandIdx j (val_main_v36 (F := Ideal) x1))
    * (val_main_v14 (F := Ideal) x1 (gather_S100000_S1700000x1_S1700000_n_0_n_n_0_1_1.operandIdx (ix1 ⟨(j 0).val, idx2_lt0 j⟩) (val_main_v20 (F := Ideal) x1))
       * val_main_v14 (F := Ideal) x1 (gather_S100000_S1700000x1_S1700000_n_0_n_n_0_1_1.operandIdx (ix1 ⟨(j 0).val, idx2_lt0 j⟩) (val_main_v27 (F := Ideal) x1)))

/-- the aggregate at an index: the zero word plus the sum of the update entries whose result index is that index -/
def agg (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (i : S100000x128.Idx) : EReal :=
  Ideal.ofBits .f32 0x00000000#32
    + ∑ j ∈ Finset.univ.filter (fun j => scatter_S100000x128_S1700000x1_S1700000x128_1_0_0_1.resultIdx? j (val_main_v42 (F := Ideal) x1) = some i),
        msg x0 x1 x2 j

/-- the concatenated row: a feature for a column below 128, else the rectified aggregate-plus-bias -/
def cat (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (n : Fin 100000) (k : Fin 256) : EReal :=
  if h : k.val < 128 then x0 (ix2 n ⟨k.val, h⟩)
  else max (agg x0 x1 x2 (ix2 n ⟨k.val - 128, by omega⟩) + x3 (ix1 ⟨k.val - 128, by omega⟩)) (Ideal.ofBits .f32 0x00000000#32)

/-- An update entry at coordinates (e, c): the two factors are gathered at e. -/
theorem msg_ix2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (e : Fin 1700000) (c : Fin 128) :
    msg x0 x1 x2 (ix2 e c)
      = val_main_v30 (F := Ideal) x0 x2 (gather_S100000x128_S1700000x1_S1700000x128_1_0_n_n_0_1_1128.operandIdx (ix2 e c) (val_main_v36 (F := Ideal) x1))
        * (val_main_v14 (F := Ideal) x1 (gather_S100000_S1700000x1_S1700000_n_0_n_n_0_1_1.operandIdx (ix1 e) (val_main_v20 (F := Ideal) x1))
           * val_main_v14 (F := Ideal) x1 (gather_S100000_S1700000x1_S1700000_n_0_n_n_0_1_1.operandIdx (ix1 e) (val_main_v27 (F := Ideal) x1))) := rfl
/-! ### Compositions of the layout operations' index maps, as indices built from coordinates -/

theorem lidx49 (n : Fin 100000) (cc : Fin 2) (k : Fin 256) : lidx_main_v49 (ix2 n cc) k = ix2 n k :=
  funext fun a => Fin.ext (by match a with | ⟨0, _⟩ => rfl | ⟨1, _⟩ => rfl)

theorem ridx49 (n : Fin 100000) (cc : Fin 2) (k : Fin 256) : ridx_main_v49 (ix2 n cc) k = ix2 k cc :=
  funext fun a => Fin.ext (by match a with | ⟨0, _⟩ => rfl | ⟨1, _⟩ => rfl)

theorem idx51 (n : Fin 100000) (cc : Fin 2) : idx_main_v50 (idx_main_v51 (ix2 n cc)) = ix1 cc :=
  funext fun a => Fin.ext (by match a with | ⟨0, _⟩ => rfl)

theorem idx45 (n : Fin 100000) (c : Fin 128) : idx_main_v44 (idx_main_v45 (ix2 n c)) = ix1 c :=
  funext fun a => Fin.ext (by match a with | ⟨0, _⟩ => rfl)

theorem idx39 (j : S1700000x128.Idx) : idx_main_v38 (idx_main_v39 j) = ix1 ⟨(j 0).val, idx2_lt0 j⟩ :=
  funext fun a => Fin.ext (by match a with | ⟨0, _⟩ => rfl)

/-! ### The three gathers: the operand at the record's operand index -/

theorem v21_at (x1 : (⟨S2x1600000, .i32⟩ : BufTy).Contents (Elt Ideal)) (i : S1700000.Idx) :
    val_main_v21 (F := Ideal) x1 i
      = val_main_v14 (F := Ideal) x1 (gather_S100000_S1700000x1_S1700000_n_0_n_n_0_1_1.operandIdx i (val_main_v20 (F := Ideal) x1)) := by
  unfold val_main_v21
  generalize val_main_v14 (F := Ideal) x1 = a
  generalize val_main_v20 (F := Ideal) x1 = b
  rfl

theorem v28_at (x1 : (⟨S2x1600000, .i32⟩ : BufTy).Contents (Elt Ideal)) (i : S1700000.Idx) :
    val_main_v28 (F := Ideal) x1 i
      = val_main_v14 (F := Ideal) x1 (gather_S100000_S1700000x1_S1700000_n_0_n_n_0_1_1.operandIdx i (val_main_v27 (F := Ideal) x1)) := by
  unfold val_main_v28
  generalize val_main_v14 (F := Ideal) x1 = a
  generalize val_main_v27 (F := Ideal) x1 = b
  rfl

theorem v37_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (j : S1700000x128.Idx) :
    val_main_v37 (F := Ideal) x0 x1 x2 j
      = val_main_v30 (F := Ideal) x0 x2 (gather_S100000x128_S1700000x1_S1700000x128_1_0_n_n_0_1_1128.operandIdx j (val_main_v36 (F := Ideal) x1)) := by
  unfold val_main_v37
  generalize val_main_v30 (F := Ideal) x0 x2 = a
  generalize val_main_v36 (F := Ideal) x1 = b
  rfl

/-- An update entry of the second scatter is the gathered row entry times the product of the two gathered factors. -/
theorem v40_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (j : S1700000x128.Idx) :
    val_main_v40 (F := Ideal) x0 x1 x2 j = msg x0 x1 x2 j := by
  rw [val_main_v40_apply, val_main_v39_apply, val_main_v38_apply, idx39, val_main_v29_apply, v37_at, v21_at, v28_at,
    Ideal.mulf_def, Ideal.mulf_def]
  rfl

/-- The host's accumulating scatter at an index, in exact arithmetic: the operand there plus the sum of the updates landing there. -/
theorem scatterAdd_apply {s si su : Shape} {w : Nat} (d : ScatterDims s si su) (x : s.Idx → EReal) (idx : IVec si w)
    (upd : su.Idx → EReal) (i : s.Idx) :
    Host.scatterAdd (F := Ideal) (φ := .f32) d x idx upd i
      = x i + ∑ j ∈ Finset.univ.filter (fun j => d.resultIdx? j idx = some i), upd j := rfl

/-- The second scatter at an index: the zero word plus the sum of the update entries landing there. -/
theorem v43_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (i : S100000x128.Idx) :
    val_main_v43 (F := Ideal) x0 x1 x2 i = agg x0 x1 x2 i := by
  unfold val_main_v43 agg
  generalize val_main_v42 (F := Ideal) x1 = idx
  rw [scatterAdd_apply, val_main_v41_apply, val_main_cst_8_apply, Ideal.ofBits_def]
  exact congrArg _ (Finset.sum_congr rfl fun j _ => v40_at x0 x1 x2 j)

/-! ### The rectified row, the concatenation and the last product -/

/-- The rectified stage at (n, c): the larger of the aggregate plus the bias entry and the zero word. -/
theorem v47_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (n : Fin 100000) (c : Fin 128) :
    val_main_v47 (F := Ideal) x0 x1 x2 x3 (ix2 n c)
      = max (agg x0 x1 x2 (ix2 n c) + x3 (ix1 c)) (Ideal.ofBits .f32 0x00000000#32) := by
  rw [val_main_v47_apply, val_main_v46_apply, val_main_v45_apply, val_main_v44_apply, idx45,
    val_main_call1_v0_apply, val_main_call1_cst_apply, v43_at, Ideal.maximumf_def, Ideal.addf_def, Ideal.ofBits_def]

/-- A column below 128 of the concatenation is the feature column. -/
theorem v48_left (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (n : Fin 100000) (k : Fin 256) (h : k.val < 128) :
    val_main_v48 (F := Ideal) x0 x1 x2 x3 (ix2 n k) = x0 (ix2 n ⟨k.val, h⟩) := by
  unfold val_main_v48
  generalize val_main_v47 (F := Ideal) x0 x1 x2 x3 = y
  exact concatenate_pair_apply_left 1 x0 y concatenates_S100000x128_S100000x128_S100000x256_d1 (ix2 n k) rfl
    (ix2 n ⟨k.val, h⟩) (fun b => by match b with | ⟨0, _⟩ => rfl | ⟨1, _⟩ => rfl)

/-- A column from 128 on of the concatenation is the rectified stage's column 128 less. -/
theorem v48_right (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (n : Fin 100000) (k : Fin 256) (h : ¬ k.val < 128) :
    val_main_v48 (F := Ideal) x0 x1 x2 x3 (ix2 n k)
      = val_main_v47 (F := Ideal) x0 x1 x2 x3 (ix2 n ⟨k.val - 128, by omega⟩) := by
  unfold val_main_v48
  generalize val_main_v47 (F := Ideal) x0 x1 x2 x3 = y
  exact concatenate_pair_apply_right 1 x0 y concatenates_S100000x128_S100000x128_S100000x256_d1 (ix2 n k) rfl rfl
    (ix2 n ⟨k.val - 128, by omega⟩)
    (fun b hb => by match b, hb with | ⟨0, _⟩, _ => rfl | ⟨1, _⟩, hb => exact absurd rfl hb)
    (by show k.val - 128 + 128 = k.val; omega)

/-- The concatenation at (n, k) is the concatenated row. -/
theorem v48_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (n : Fin 100000) (k : Fin 256) :
    val_main_v48 (F := Ideal) x0 x1 x2 x3 (ix2 n k) = cat x0 x1 x2 x3 n k := by
  unfold cat
  by_cases h : k.val < 128
  · rw [dif_pos h]; exact v48_left x0 x1 x2 x3 n k h
  · rw [dif_neg h, v48_right x0 x1 x2 x3 n k h]; exact v47_at x0 x1 x2 x3 n _

/-- The last stage at (n, cc): the concatenation's row n against column cc of the last matrix, plus the last bias entry. -/
theorem v52_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S256x2, .f32⟩ : BufTy).Contents (Elt Ideal)) (x5 : (⟨S2, .f32⟩ : BufTy).Contents (Elt Ideal)) (n : Fin 100000) (cc : Fin 2) :
    val_main_v52 (F := Ideal) x0 x1 x2 x3 x4 x5 (ix2 n cc)
      = (∑ k : Fin 256, val_main_v48 (F := Ideal) x0 x1 x2 x3 (ix2 n k) * x4 (ix2 k cc)) + x5 (ix1 cc) := by
  rw [val_main_v52_apply, val_main_v49_apply, val_main_v51_apply, val_main_v50_apply, idx51, Ideal.addf_def]
  simp only [lidx49, ridx49]

/-- The reference's result at (n, cc), down to the arguments and the named graph pieces. -/
theorem ref_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S256x2, .f32⟩ : BufTy).Contents (Elt Ideal)) (x5 : (⟨S2, .f32⟩ : BufTy).Contents (Elt Ideal)) (n : Fin 100000) (cc : Fin 2) :
    val_main_v52 (F := Ideal) x0 x1 x2 x3 x4 x5 (ix2 n cc)
      = (∑ k : Fin 256, cat x0 x1 x2 x3 n k * x4 (ix2 k cc)) + x5 (ix1 cc) := by
  rw [v52_at]
  exact congrArg (· + x5 (ix1 cc)) (Finset.sum_congr rfl fun k _ => congrArg (· * x4 (ix2 k cc)) (v48_at x0 x1 x2 x3 n k))

end Cert.ReferenceIdeal.RefVal

end
-- ==== Proof.Decode.lean ====
/-
  Where a row gather reads and where a row scatter lands, for the edge-list forms of this graph convolution.

  The index array is a column `[E, 1]` of words, one per edge. A gather of rows reads, for edge `e`, the operand row
  `min (word read as a signed integer, negatives as 0) (rows - 1)`: out-of-range indices are clamped. A scatter of rows
  sends edge `e`'s update row to the operand row named by the word read as a signed integer, NOT clamped: an update
  whose row is out of range is dropped. So an update that lands on row `n` has an index word whose signed value is `n`.
-/
import Idealize.ShloMosaic.PureOps
import Idealize.ShloMosaic.Lib.ValueIdx

namespace Cert.Gcn

open Idealize.ShloMosaic Idealize.ShloMosaic.ValueIdx

/-- The row a clamped gather reads for an index word. -/
def clampRow (v : Int) : Fin 100000 := ⟨min v.toNat 99999, by omega⟩

/-- A gather of whole rows of a `[100000, 128]` array by an index column: entry `(e, k)` reads row
    `clampRow (idx e)`, column `k`. -/
theorem gather_rows_operandIdx {w : Nat}
    (d : GatherDims ⟨2, ![100000, 128]⟩ ⟨2, ![1700000, 1]⟩ ⟨2, ![1700000, 128]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, 128])
    (idx : IVec ⟨2, ![1700000, 1]⟩ w) (e : Fin 1700000) (k : Fin 128) :
    d.operandIdx (ix2 e k) idx = ix2 (clampRow (idx (ix2 e (0 : Fin 1))).toInt) k := by
  obtain ⟨od, cd, ob, sb, sm, iv, ss, wf⟩ := d
  simp only at h1 h2 h3 h4 h5 h6 h7
  subst h1 h2 h3 h4 h5 h6 h7
  set D : GatherDims ⟨2, ![100000, 128]⟩ ⟨2, ![1700000, 1]⟩ ⟨2, ![1700000, 128]⟩ := ⟨[1], [0], [], [], [0], 1, ![1, 128], wf⟩ with hD
  have hsi : ∀ c : Fin D.startIndexMap.length, D.siIdx (ix2 e k) c = ix2 e (0 : Fin 1) := by
    intro c
    funext b
    match b with
    | ⟨0, _⟩ => rfl
    | ⟨1, _⟩ => exact Fin.ext (by have hc : c.val < 1 := c.isLt; show c.val = 0; omega)
  funext a
  apply Fin.ext
  match a with
  | ⟨0, _⟩ =>
    show D.start (ix2 e k) idx ⟨0, by decide⟩ + D.batchCoord (ix2 e k) ⟨0, by decide⟩ + D.offCoord (ix2 e k) ⟨0, by decide⟩ = _
    have hs : D.start (ix2 e k) idx ⟨0, by decide⟩
        = min (idx (D.siIdx (ix2 e k) ⟨0, Nat.zero_lt_one⟩)).toInt.toNat 99999 := rfl
    have hb : D.batchCoord (ix2 e k) ⟨0, by decide⟩ = 0 := rfl
    have ho : D.offCoord (ix2 e k) ⟨0, by decide⟩ = 0 := rfl
    rw [hs, hb, ho, hsi]
    rfl
  | ⟨1, _⟩ =>
    show D.start (ix2 e k) idx ⟨1, by decide⟩ + D.batchCoord (ix2 e k) ⟨1, by decide⟩ + D.offCoord (ix2 e k) ⟨1, by decide⟩ = _
    have hs : D.start (ix2 e k) idx ⟨1, by decide⟩ = 0 := rfl
    have hb : D.batchCoord (ix2 e k) ⟨1, by decide⟩ = 0 := rfl
    have ho : D.offCoord (ix2 e k) ⟨1, by decide⟩ = k.val := rfl
    rw [hs, hb, ho]
    show 0 + 0 + k.val = k.val
    omega

/-- A gather of single entries of a length-`100000` vector by an index column: entry `e` reads `clampRow (idx e)`. -/
theorem gather_vec_operandIdx {w : Nat}
    (d : GatherDims ⟨1, ![100000]⟩ ⟨2, ![1700000, 1]⟩ ⟨1, ![1700000]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (idx : IVec ⟨2, ![1700000, 1]⟩ w) (e : Fin 1700000) :
    d.operandIdx (ix1 e) idx = ix1 (clampRow (idx (ix2 e (0 : Fin 1))).toInt) := by
  obtain ⟨od, cd, ob, sb, sm, iv, ss, wf⟩ := d
  simp only at h1 h2 h3 h4 h5 h6 h7
  subst h1 h2 h3 h4 h5 h6 h7
  set D : GatherDims ⟨1, ![100000]⟩ ⟨2, ![1700000, 1]⟩ ⟨1, ![1700000]⟩ := ⟨[], [0], [], [], [0], 1, ![1], wf⟩ with hD
  have hsi : ∀ c : Fin D.startIndexMap.length, D.siIdx (ix1 e) c = ix2 e (0 : Fin 1) := by
    intro c
    funext b
    match b with
    | ⟨0, _⟩ => rfl
    | ⟨1, _⟩ => exact Fin.ext (by have hc : c.val < 1 := c.isLt; show c.val = 0; omega)
  funext a
  apply Fin.ext
  match a with
  | ⟨0, _⟩ =>
    show D.start (ix1 e) idx ⟨0, by decide⟩ + D.batchCoord (ix1 e) ⟨0, by decide⟩ + D.offCoord (ix1 e) ⟨0, by decide⟩ = _
    have hs : D.start (ix1 e) idx ⟨0, by decide⟩
        = min (idx (D.siIdx (ix1 e) ⟨0, Nat.zero_lt_one⟩)).toInt.toNat 99999 := rfl
    have hb : D.batchCoord (ix1 e) ⟨0, by decide⟩ = 0 := rfl
    have ho : D.offCoord (ix1 e) ⟨0, by decide⟩ = 0 := rfl
    rw [hs, hb, ho, hsi]
    rfl

/-- A scatter of whole rows into a `[100000, 128]` array by an index column: if update entry `(e, k')` lands on
    entry `(n, k)` then the index word of edge `e`, read as a signed integer, is `n`. -/
theorem scatter_rows_lands {w : Nat}
    (d : ScatterDims ⟨2, ![100000, 128]⟩ ⟨2, ![1700000, 1]⟩ ⟨2, ![1700000, 128]⟩)
    (h1 : d.updateWindowDims = [1]) (h2 : d.insertedWindowDims = [0]) (h3 : d.scatterDimsToOperandDims = [0])
    (h4 : d.indexVectorDim = 1)
    (idx : IVec ⟨2, ![1700000, 1]⟩ w) (j : (⟨2, ![1700000, 128]⟩ : Shape).Idx) (n : Fin 100000) (k : Fin 128)
    (h : d.resultIdx? j idx = some (ix2 n k)) :
    (idx (ix2 (j 0) (0 : Fin 1))).toInt = (n.val : Int) := by
  obtain ⟨uw, iw, sd, iv, wf⟩ := d
  simp only at h1 h2 h3 h4
  subst h1 h2 h3 h4
  set D : ScatterDims ⟨2, ![100000, 128]⟩ ⟨2, ![1700000, 1]⟩ ⟨2, ![1700000, 128]⟩ := ⟨[1], [0], [0], 1, wf⟩ with hD
  have hsi : ∀ c : Fin D.scatterDimsToOperandDims.length, D.siIdx j c = ix2 (j 0) (0 : Fin 1) := by
    intro c
    funext b
    match b with
    | ⟨0, _⟩ => rfl
    | ⟨1, _⟩ => exact Fin.ext (by have hc : c.val < 1 := c.isLt; show c.val = 0; omega)
  have hs : D.start j idx ⟨0, by decide⟩
      = (idx (D.siIdx j ⟨0, Nat.zero_lt_one⟩)).toInt := rfl
  have hw : D.window j ⟨0, by decide⟩ = 0 := rfl
  unfold ScatterDims.resultIdx? at h
  split at h
  · rename_i hall
    have h0 := (hall ⟨0, by decide⟩).1
    have e0 := congrArg (fun f => (f ⟨0, by decide⟩).val) (Option.some.inj h)
    have e1 : (D.start j idx ⟨0, by decide⟩ + ((D.window j ⟨0, by decide⟩ : Nat) : Int)).toNat = n.val := e0
    rw [hs, hw, hsi] at h0 e1
    simp only [Nat.cast_zero, add_zero] at h0 e1
    have key : ∀ T : Int, 0 ≤ T → T.toNat = n.val → T = (n.val : Int) := by intro T h1 h2; omega
    exact key _ h0 e1
  · cases h

end Cert.Gcn
-- ==== Proof.Algebra.lean ====
/-
  The algebra that joins the two arrangements of the graph convolution, on the extended reals.

  * A finite sum may be multiplied through by a factor that is a nonnegative real: `(∑ f) * c = ∑ (f * c)`. On the
    extended reals this needs the factor to be finite and of one sign (an infinite or negative factor can meet `⊤ + ⊥`);
    a node's factor is either zero or the inverse square root of a positive degree, so it qualifies.
  * Hence an aggregate of messages each scaled by its source's factor, then scaled by the destination's factor, is the
    aggregate of the messages scaled by the product of the two factors.
  * A node's factor `if 0 < D then 1/√D else 0` is nonnegative and not `⊤`, whatever the degree `D` is.
  * A sum over 256 columns is the sum over the first 128 plus the sum over the last 128.
-/
import Idealize.ShloMosaic.PureOps.Ideal.Laws

noncomputable section

namespace Cert.Gcn

open Idealize.ShloMosaic

/-- Multiplying a finite sum by a nonnegative finite factor, term by term. -/
theorem sum_mul_of_nonneg_ne_top {ι : Type*} (S : Finset ι) (f : ι → EReal) {c : EReal} (h0 : 0 ≤ c) (ht : c ≠ ⊤) :
    (∑ j ∈ S, f j) * c = ∑ j ∈ S, f j * c := by
  classical
  induction S using Finset.induction_on with
  | empty => simp
  | insert a s ha ih =>
    rw [Finset.sum_insert ha, Finset.sum_insert ha, EReal.right_distrib_of_nonneg_of_ne_top h0 ht, ih]

/-- Scaling each message by its source's factor and the aggregate by the destination's factor `c` is scaling each
    message by the product of the two; the aggregate starts from the zero word. -/
theorem agg_scale {ι : Type*} (S : Finset ι) (a d : ι → EReal) {c : EReal} (h0 : 0 ≤ c) (ht : c ≠ ⊤) :
    (Ideal.ofBits .f32 0x00000000#32 + ∑ j ∈ S, a j * d j) * c
      = Ideal.ofBits .f32 0x00000000#32 + ∑ j ∈ S, a j * (d j * c) := by
  rw [Ideal.ofBits_zero_f32, zero_add, zero_add, sum_mul_of_nonneg_ne_top S _ h0 ht]
  exact Finset.sum_congr rfl fun j _ => mul_assoc _ _ _

/-- The inverse square root of a positive extended real is a nonnegative real. -/
theorem rsqrt_bounds {x : EReal} (hx : 0 < x) : 0 ≤ Ideal.rsqrt x ∧ Ideal.rsqrt x ≠ ⊤ := by
  induction x using EReal.rec with
  | bot => exact absurd hx (not_lt_bot)
  | top => rw [Ideal.rsqrt_top]; exact ⟨le_refl _, EReal.zero_ne_top⟩
  | coe r =>
    have hr : 0 < r := by exact_mod_cast hx
    rw [Ideal.rsqrt_coe, if_neg (not_lt.2 hr.le), if_neg hr.ne']
    exact ⟨EReal.coe_nonneg.2 (inv_nonneg.2 (Real.sqrt_nonneg r)), EReal.coe_ne_top _⟩

/-- A node's factor — the inverse square root of its degree when the degree is positive, else the zero word — is
    nonnegative and finite from above. -/
theorem factor_bounds (D : EReal) :
    0 ≤ Scalar.select (Ideal.cmp .ogt D (Ideal.ofBits .f32 0x00000000#32)) (Ideal.rsqrt D) (Ideal.ofBits .f32 0x00000000#32)
    ∧ Scalar.select (Ideal.cmp .ogt D (Ideal.ofBits .f32 0x00000000#32)) (Ideal.rsqrt D) (Ideal.ofBits .f32 0x00000000#32) ≠ ⊤ := by
  rw [Ideal.ofBits_zero_f32]
  unfold Scalar.select Ideal.cmp
  by_cases h : (0 : EReal) < D
  · have e : BitVec.ofBool (decide ((0 : EReal) < D)) = 1#1 := by rw [decide_eq_true h]; rfl
    simp only [e, if_true]
    exact rsqrt_bounds h
  · have e : BitVec.ofBool (decide ((0 : EReal) < D)) = 0#1 := by rw [decide_eq_false h]; rfl
    simp only [e]
    rw [if_neg (by decide)]
    exact ⟨le_refl _, EReal.zero_ne_top⟩

/-- A sum over 256 columns splits into its first and last 128. -/
theorem sum_256_split {M : Type*} [AddCommMonoid M] (f : Fin 256 → M) :
    ∑ k : Fin 256, f k
      = (∑ q : Fin 128, f ⟨q.val, by omega⟩) + ∑ q : Fin 128, f ⟨128 + q.val, by omega⟩ := by
  have h := Fin.sum_univ_add (a := 128) (b := 128) (f := f)
  exact h

end Cert.Gcn

end
-- ==== Proof.RefBridge.lean ====
import proofs.«153504_j16999480558341_2_alg».proof.Proof.RefVal
import proofs.«153504_j16999480558341_2_alg».proof.Proof.Spec
import proofs.«153504_j16999480558341_2_alg».proof.Proof.Decode
import proofs.«153504_j16999480558341_2_alg».proof.Proof.Algebra
import proofs.«153504_j16999480558341_2_alg».proof.Proof.LibKeepdims

/-! The algebra joining two arrangements of the graph convolution, stated over the reference's own names.

One arrangement scales each row of the product of the features with the first matrix by the row's factor before the edges
are walked, gathers and adds up the scaled rows, and scales a node's aggregate by the node's factor afterwards; the
reference scales every edge's gathered row by the product of the factors at the edge's two ends. They agree entry by entry:
an update that lands on row n has n as its raw destination word, which is not negative and in range, so the destination
factor of every term of row n's sum is the factor of n; the two sign-normalised source columns are one column, so the row
and its factor are read at the same clamped source row; and a node's factor is a nonnegative real, so the sum may be
multiplied through by it. The output layer's sum over 256 columns is the sum over the features' 128 columns against the
upper half of the last matrix plus the sum over the rectified aggregate's 128 columns against the lower half. -/

noncomputable section

open scoped BigOperators

namespace Cert.ReferenceIdeal.RefBridge

open Cert.ReferenceIdeal Cert.ReferenceIdeal.ReadP Cert.ReferenceIdeal.Gen Idealize.ShloMosaic Idealize.ShloMosaic.ValueIdx

/-! ### Small facts about the index columns and the factor vector -/

/-- The two sign-normalised source columns are one and the same. -/
theorem v20_eq_v36 (x1 : (⟨S2x1600000, .i32⟩ : BufTy).Contents (Elt Ideal)) : val_main_v20 (F := Ideal) x1 = val_main_v36 (F := Ideal) x1 := by
  unfold val_main_v20 val_main_v36 val_main_v19 val_main_v35 val_main_v16 val_main_v32 val_main_v18 val_main_v34
    val_main_v15 val_main_v31 val_main_v17 val_main_v33 val_main_c val_main_c_6 val_main_c_3 val_main_c_7
  rfl

theorem idx27 (e : Fin 1700000) : idx_main_v27 (ix2 e (0 : Fin 1)) = ix1 e :=
  funext fun a => Fin.ext (by match a with | ⟨0, _⟩ => rfl)

theorem idx42 (e : Fin 1700000) : idx_main_v42 (ix2 e (0 : Fin 1)) = ix1 e :=
  funext fun a => Fin.ext (by match a with | ⟨0, _⟩ => rfl)

theorem lidx30 (r : Fin 100000) (k p : Fin 128) : lidx_main_v30 (ix2 r k) p = ix2 r p :=
  funext fun a => Fin.ext (by match a with | ⟨0, _⟩ => rfl | ⟨1, _⟩ => rfl)

theorem ridx30 (r : Fin 100000) (k p : Fin 128) : ridx_main_v30 (ix2 r k) p = ix2 p k :=
  funext fun a => Fin.ext (by match a with | ⟨0, _⟩ => rfl | ⟨1, _⟩ => rfl)

/-- A word that is not negative as a signed integer is not below zero, so the select on "below zero" keeps it. -/
theorem select_slt_zero_of_nonneg {α : Type} (w : BitVec 32) (a b : α) (h : 0 ≤ w.toInt) :
    Scalar.select (IntOp.cmpi .slt w 0#32) a b = b := by
  have hs : w.slt 0#32 = false := by
    simp only [BitVec.slt, BitVec.toInt_zero]
    exact decide_eq_false (by omega)
  unfold Scalar.select IntOp.cmpi
  simp only [hs]
  exact if_neg (by decide)

/-- On an edge whose raw destination word is not negative, the sign-normalised destination column is the raw one. -/
theorem v27_of_nonneg (x1 : (⟨S2x1600000, .i32⟩ : BufTy).Contents (Elt Ideal)) (e : Fin 1700000)
    (h : 0 ≤ (val_main_v42 (F := Ideal) x1 (ix2 e (0 : Fin 1))).toInt) :
    val_main_v27 (F := Ideal) x1 (ix2 e (0 : Fin 1)) = val_main_v42 (F := Ideal) x1 (ix2 e (0 : Fin 1)) := by
  rw [val_main_v42_apply, idx42] at h ⊢
  rw [val_main_v27_apply, idx27, val_main_v26_apply, val_main_v23_apply, val_main_v22_apply, val_main_c_4_apply]
  generalize val_main_v6 (F := Ideal) x1 (ix1 e) = w at h ⊢
  exact select_slt_zero_of_nonneg w _ w h

/-- A node's factor is a nonnegative extended real other than ⊤. -/
theorem dinv_bounds (x1 : (⟨S2x1600000, .i32⟩ : BufTy).Contents (Elt Ideal)) (n : Fin 100000) :
    0 ≤ val_main_v14 (F := Ideal) x1 (ix1 n) ∧ val_main_v14 (F := Ideal) x1 (ix1 n) ≠ ⊤ := by
  rw [val_main_v14_apply, val_main_v12_apply, val_main_v13_apply, val_main_call0_v1_apply, val_main_call0_v0_apply,
    val_main_cst_2_apply, val_main_v11_apply, val_main_cst_1_apply]
  generalize val_main_v10 (F := Ideal) x1 (ix1 n) = D
  exact Cert.Gcn.factor_bounds D

/-- The product of the features with the first matrix at (r, k), as the sum over the 128 inner columns. -/
theorem v30_at (x0 : (⟨S100000x128, .f32⟩ : BufTy).Contents (Elt Ideal)) (x2 : (⟨S128x128, .f32⟩ : BufTy).Contents (Elt Ideal)) (r : Fin 100000) (k : Fin 128) :
    val_main_v30 (F := Ideal) x0 x2 (ix2 r k) = ∑ p : Fin 128, x0 (ix2 r p) * x2 (ix2 p k) := by
  rw [val_main_v30_apply]
  simp only [lidx30, ridx30]

/-- Clamping a row number that is in range leaves it alone. -/
theorem clampRow_cast (n : Fin 100000) : Cert.Gcn.clampRow (n.val : Int) = n := by
  apply Fin.ext
  show min (Int.toNat (n.val : Int)) 99999 = n.val
  have := n.isLt
  rw [Int.toNat_natCast]
  omega

/-! ### The two arrangements of one update entry -/

/-- The clamped source row of an update entry: the row both the row gather and the factor gather read for its edge. -/
def srcRow (x1 : (⟨S2x1600000, .i32⟩ : BufTy).Contents (Elt Ideal)) (j : S1700000x128.Idx) : Fin 100000 :=
  Cert.Gcn.clampRow (val_main_v36 (F := Ideal) x1 (ix2 (⟨(j 0).val, idx2_lt0 j⟩ : Fin 1700000) (0 : Fin 1))).toInt

/-- An entry of the gathered scaled rows: the product entry of the clamped source row times that row's factor. -/
theorem gath_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (hsc : (⟨1, ![100000]⟩ : Shape).ShapeCasts ⟨2, ![100000, 1]⟩)
    (XWS : S100000x128.Idx → EReal)
    (hX : ∀ (r : Fin 100000) (k : Fin 128), XWS (ix2 r k)
      = Cert.Gcn.xwS x0 x2 (shapeCast ⟨2, ![100000, 1]⟩ (val_main_v14 (F := Ideal) x1) hsc) r k) (e : Fin 1700000) (k : Fin 128) :
    Host.gather (α := Ideal .f32) gather_S100000x128_S1700000x1_S1700000x128_1_0_n_n_0_1_1128 XWS (val_main_v36 (F := Ideal) x1) (ix2 e k)
      = val_main_v30 (F := Ideal) x0 x2 (ix2 (Cert.Gcn.clampRow (val_main_v36 (F := Ideal) x1 (ix2 e (0 : Fin 1))).toInt) k)
        * val_main_v14 (F := Ideal) x1 (ix1 (Cert.Gcn.clampRow (val_main_v36 (F := Ideal) x1 (ix2 e (0 : Fin 1))).toInt)) := by
  show XWS (gather_S100000x128_S1700000x1_S1700000x128_1_0_n_n_0_1_1128.operandIdx (ix2 e k) (val_main_v36 (F := Ideal) x1)) = _
  rw [Cert.Gcn.gather_rows_operandIdx gather_S100000x128_S1700000x1_S1700000x128_1_0_n_n_0_1_1128 rfl rfl rfl rfl rfl rfl rfl (val_main_v36 (F := Ideal) x1) e k, hX, v30_at]
  unfold Cert.Gcn.xwS
  rw [Cert.LibKeepdims.shapeCast_a_a1_apply]

theorem gath_at' (x0 : (⟨S100000x128, .f32⟩ : BufTy).Contents (Elt Ideal)) (x1 : (⟨S2x1600000, .i32⟩ : BufTy).Contents (Elt Ideal)) (x2 : (⟨S128x128, .f32⟩ : BufTy).Contents (Elt Ideal)) (hsc : (⟨1, ![100000]⟩ : Shape).ShapeCasts ⟨2, ![100000, 1]⟩)
    (XWS : S100000x128.Idx → EReal)
    (hX : ∀ (r : Fin 100000) (k : Fin 128), XWS (ix2 r k)
      = Cert.Gcn.xwS x0 x2 (shapeCast ⟨2, ![100000, 1]⟩ (val_main_v14 (F := Ideal) x1) hsc) r k) (j : S1700000x128.Idx) :
    Host.gather (α := Ideal .f32) gather_S100000x128_S1700000x1_S1700000x128_1_0_n_n_0_1_1128 XWS (val_main_v36 (F := Ideal) x1) j
      = val_main_v30 (F := Ideal) x0 x2 (ix2 (srcRow x1 j) (⟨(j 1).val, idx2_lt1 j⟩ : Fin 128))
        * val_main_v14 (F := Ideal) x1 (ix1 (srcRow x1 j)) := by
  obtain ⟨e, k, rfl⟩ : ∃ (e : Fin 1700000) (k : Fin 128), j = ix2 e k := ⟨j 0, j 1, eq_ix2 j⟩
  exact gath_at x0 x1 x2 hsc XWS hX e k

/-- An update entry of the reference that lands on row n: both factors are read at rows the edge names, the source's at
    the clamped source row, the destination's at n itself, since the raw destination word is n, is not negative, is
    left alone by the sign normalisation, and is in range. -/
theorem msg_lands (x0 : (⟨S100000x128, .f32⟩ : BufTy).Contents (Elt Ideal)) (x1 : (⟨S2x1600000, .i32⟩ : BufTy).Contents (Elt Ideal)) (x2 : (⟨S128x128, .f32⟩ : BufTy).Contents (Elt Ideal)) (n : Fin 100000) (q : Fin 128) (e : Fin 1700000) (k : Fin 128)
    (h : scatter_S100000x128_S1700000x1_S1700000x128_1_0_0_1.resultIdx? (ix2 e k) (val_main_v42 (F := Ideal) x1) = some (ix2 n q)) :
    RefVal.msg x0 x1 x2 (ix2 e k)
      = val_main_v30 (F := Ideal) x0 x2 (ix2 (Cert.Gcn.clampRow (val_main_v36 (F := Ideal) x1 (ix2 e (0 : Fin 1))).toInt) k)
        * (val_main_v14 (F := Ideal) x1 (ix1 (Cert.Gcn.clampRow (val_main_v36 (F := Ideal) x1 (ix2 e (0 : Fin 1))).toInt))
           * val_main_v14 (F := Ideal) x1 (ix1 n)) := by
  have hl : (val_main_v42 (F := Ideal) x1 (ix2 e (0 : Fin 1))).toInt = (n.val : Int) :=
    Cert.Gcn.scatter_rows_lands scatter_S100000x128_S1700000x1_S1700000x128_1_0_0_1 rfl rfl rfl rfl (val_main_v42 (F := Ideal) x1) (ix2 e k) n q h
  have h27 := v27_of_nonneg x1 e (by rw [hl]; exact Int.natCast_nonneg _)
  rw [RefVal.msg_ix2,
    Cert.Gcn.gather_rows_operandIdx gather_S100000x128_S1700000x1_S1700000x128_1_0_n_n_0_1_1128 rfl rfl rfl rfl rfl rfl rfl (val_main_v36 (F := Ideal) x1) e k,
    Cert.Gcn.gather_vec_operandIdx gather_S100000_S1700000x1_S1700000_n_0_n_n_0_1_1 rfl rfl rfl rfl rfl rfl rfl (val_main_v20 (F := Ideal) x1) e,
    Cert.Gcn.gather_vec_operandIdx gather_S100000_S1700000x1_S1700000_n_0_n_n_0_1_1 rfl rfl rfl rfl rfl rfl rfl (val_main_v27 (F := Ideal) x1) e,
    v20_eq_v36, h27, hl, clampRow_cast]

theorem msg_lands' (x0 : (⟨S100000x128, .f32⟩ : BufTy).Contents (Elt Ideal)) (x1 : (⟨S2x1600000, .i32⟩ : BufTy).Contents (Elt Ideal)) (x2 : (⟨S128x128, .f32⟩ : BufTy).Contents (Elt Ideal)) (n : Fin 100000) (q : Fin 128) (j : S1700000x128.Idx)
    (h : scatter_S100000x128_S1700000x1_S1700000x128_1_0_0_1.resultIdx? j (val_main_v42 (F := Ideal) x1) = some (ix2 n q)) :
    RefVal.msg x0 x1 x2 j
      = val_main_v30 (F := Ideal) x0 x2 (ix2 (srcRow x1 j) (⟨(j 1).val, idx2_lt1 j⟩ : Fin 128))
        * (val_main_v14 (F := Ideal) x1 (ix1 (srcRow x1 j)) * val_main_v14 (F := Ideal) x1 (ix1 n)) := by
  obtain ⟨e, k, rfl⟩ : ∃ (e : Fin 1700000) (k : Fin 128), j = ix2 e k := ⟨j 0, j 1, eq_ix2 j⟩
  exact msg_lands x0 x1 x2 n q e k h

/-! ### The aggregate -/

/-- Scaling each row of the product by its factor before the edges are walked and the aggregate by the destination's
    factor afterwards gives the reference's aggregate, which scales each edge's entry by the product of the two factors. -/
theorem agg_bridge (x0 : (⟨S100000x128, .f32⟩ : BufTy).Contents (Elt Ideal)) (x1 : (⟨S2x1600000, .i32⟩ : BufTy).Contents (Elt Ideal)) (x2 : (⟨S128x128, .f32⟩ : BufTy).Contents (Elt Ideal)) (hsc : (⟨1, ![100000]⟩ : Shape).ShapeCasts ⟨2, ![100000, 1]⟩)
    (XWS : S100000x128.Idx → EReal)
    (hX : ∀ (r : Fin 100000) (k : Fin 128), XWS (ix2 r k)
      = Cert.Gcn.xwS x0 x2 (shapeCast ⟨2, ![100000, 1]⟩ (val_main_v14 (F := Ideal) x1) hsc) r k) (n : Fin 100000) (q : Fin 128) :
    Host.scatterAdd (F := Ideal) (φ := .f32) scatter_S100000x128_S1700000x1_S1700000x128_1_0_0_1 (val_main_v41 (F := Ideal)) (val_main_v42 (F := Ideal) x1)
        (Host.gather (α := Ideal .f32) gather_S100000x128_S1700000x1_S1700000x128_1_0_n_n_0_1_1128 XWS (val_main_v36 (F := Ideal) x1)) (ix2 n q)
      * (shapeCast ⟨2, ![100000, 1]⟩ (val_main_v14 (F := Ideal) x1) hsc) (ix2 n (0 : Fin 1))
    = RefVal.agg x0 x1 x2 (ix2 n q) := by
  have hc := dinv_bounds x1 n
  rw [RefVal.scatterAdd_apply, val_main_v41_apply, val_main_cst_8_apply, Ideal.ofBits_def,
    Cert.LibKeepdims.shapeCast_a_a1_apply]
  unfold RefVal.agg
  refine (congrArg (fun s => (Ideal.ofBits .f32 0x00000000#32 + s) * val_main_v14 (F := Ideal) x1 (ix1 n))
    (Finset.sum_congr rfl fun j _ => gath_at' x0 x1 x2 hsc XWS hX j)).trans ?_
  refine (Cert.Gcn.agg_scale _ (fun j => val_main_v30 (F := Ideal) x0 x2 (ix2 (srcRow x1 j) (⟨(j 1).val, idx2_lt1 j⟩ : Fin 128)))
    (fun j => val_main_v14 (F := Ideal) x1 (ix1 (srcRow x1 j))) hc.1 hc.2).trans ?_
  exact congrArg (fun s => Ideal.ofBits .f32 0x00000000#32 + s)
    (Finset.sum_congr rfl fun j hj => (msg_lands' x0 x1 x2 n q j (Finset.mem_filter.1 hj).2).symm)

/-! ### The output layer -/

/-- The upper half of the last matrix: rows 0 to 127. -/
theorem slice_lo (x4 : (⟨S256x2, .f32⟩ : BufTy).Contents (Elt Ideal)) (hs1 : (⟨2, ![256, 2]⟩ : Shape).Slices ![0, 0] ⟨2, ![128, 2]⟩) (q : Fin 128) (cc : Fin 2) :
    extractStridedSlice ⟨2, ![128, 2]⟩ ![0, 0] x4 hs1 (ix2 q cc) = x4 (ix2 (⟨q.val, by omega⟩ : Fin 256) cc) :=
  extractStridedSlice_apply ![0, 0] x4 hs1 (ix2 q cc) (ix2 (⟨q.val, by omega⟩ : Fin 256) cc) (fun a => match a with
    | ⟨0, _⟩ => by show q.val = 0 + q.val; omega
    | ⟨1, _⟩ => by show cc.val = 0 + cc.val; omega)

/-- The lower half of the last matrix: rows 128 to 255. -/
theorem slice_hi (x4 : (⟨S256x2, .f32⟩ : BufTy).Contents (Elt Ideal)) (hs2 : (⟨2, ![256, 2]⟩ : Shape).Slices ![128, 0] ⟨2, ![128, 2]⟩) (q : Fin 128) (cc : Fin 2) :
    extractStridedSlice ⟨2, ![128, 2]⟩ ![128, 0] x4 hs2 (ix2 q cc) = x4 (ix2 (⟨128 + q.val, by omega⟩ : Fin 256) cc) :=
  extractStridedSlice_apply ![128, 0] x4 hs2 (ix2 q cc) (ix2 (⟨128 + q.val, by omega⟩ : Fin 256) cc) (fun a => match a with
    | ⟨0, _⟩ => by show 128 + q.val = 128 + q.val; omega
    | ⟨1, _⟩ => by show cc.val = 0 + cc.val; omega)

/-- A column below 128 of the concatenated row is the feature. -/
theorem cat_lo (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (n : Fin 100000) (q : Fin 128) :
    RefVal.cat x0 x1 x2 x3 n (⟨q.val, by omega⟩ : Fin 256) = x0 (ix2 n q) := by
  unfold RefVal.cat
  rw [dif_pos (show ((⟨q.val, by omega⟩ : Fin 256)).val < 128 from q.isLt)]

/-- Column 128 + q of the concatenated row is the rectified aggregate plus bias at column q. -/
theorem cat_hi (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (n : Fin 100000) (k : Fin 256) (q : Fin 128) (hk : k.val = 128 + q.val) :
    RefVal.cat x0 x1 x2 x3 n k
      = max (RefVal.agg x0 x1 x2 (ix2 n q) + x3 (ix1 q)) (Ideal.ofBits .f32 0x00000000#32) := by
  have hb : k.val - 128 < 128 := by have := k.isLt; omega
  have hq : q = ⟨k.val - 128, hb⟩ := Fin.ext (by show q.val = k.val - 128; omega)
  subst hq
  unfold RefVal.cat
  rw [dif_neg (show ¬ k.val < 128 by omega)]

/-- The split arrangement of the output layer, fed the scaled-row aggregate, is the reference's result. -/
theorem out_bridge (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S256x2, .f32⟩ : BufTy).Contents (Elt Ideal)) (x5 : (⟨S2, .f32⟩ : BufTy).Contents (Elt Ideal)) (hsc : (⟨1, ![100000]⟩ : Shape).ShapeCasts ⟨2, ![100000, 1]⟩)
    (hs1 : (⟨2, ![256, 2]⟩ : Shape).Slices ![0, 0] ⟨2, ![128, 2]⟩)
    (hs2 : (⟨2, ![256, 2]⟩ : Shape).Slices ![128, 0] ⟨2, ![128, 2]⟩)
    (XWS : S100000x128.Idx → EReal)
    (hX : ∀ (r : Fin 100000) (k : Fin 128), XWS (ix2 r k)
      = Cert.Gcn.xwS x0 x2 (shapeCast ⟨2, ![100000, 1]⟩ (val_main_v14 (F := Ideal) x1) hsc) r k) (n : Fin 100000) (cc : Fin 2) :
    Cert.Gcn.outK x0
        (Host.scatterAdd (F := Ideal) (φ := .f32) scatter_S100000x128_S1700000x1_S1700000x128_1_0_0_1 (val_main_v41 (F := Ideal)) (val_main_v42 (F := Ideal) x1)
          (Host.gather (α := Ideal .f32) gather_S100000x128_S1700000x1_S1700000x128_1_0_n_n_0_1_1128 XWS (val_main_v36 (F := Ideal) x1)))
        (shapeCast ⟨2, ![100000, 1]⟩ (val_main_v14 (F := Ideal) x1) hsc) x3
        (extractStridedSlice ⟨2, ![128, 2]⟩ ![0, 0] x4 hs1) (extractStridedSlice ⟨2, ![128, 2]⟩ ![128, 0] x4 hs2) x5 n cc
      = val_main_v52 (F := Ideal) x0 x1 x2 x3 x4 x5 (ix2 n cc) := by
  rw [RefVal.ref_at, Cert.Gcn.sum_256_split]
  unfold Cert.Gcn.outK
  refine congrArg (· + x5 (ix1 cc)) (congrArg₂ (· + ·) (Finset.sum_congr rfl fun q _ => ?_) (Finset.sum_congr rfl fun q _ => ?_))
  · rw [slice_lo, cat_lo]
  · rw [slice_hi, agg_bridge x0 x1 x2 hsc XWS hX n q, cat_hi x0 x1 x2 x3 n _ q rfl]

end Cert.ReferenceIdeal.RefBridge

end
-- ==== Proof.KValue.lean ====
/-
  What the idealized kernel program leaves in its result buffer, entry by entry: the reference's last stage.

  The result buffer is the last region's output array: each 2000-row block is what that region's body stores from the
  blocks of its inputs, so entry `(n, c)` is the output layer in the split arrangement, read off the arrays the region
  finds. Those arrays are the arguments, the two halves of the output weight, the column of node factors, and the
  aggregate the host operations between the regions scatter-add from the rows the first region wrote — the features times
  the first weight, each row scaled by its node's factor. The algebra module joins this arrangement to the reference's.
-/
import proofs.«153504_j16999480558341_2_alg».proof.Proof.KRun
import proofs.«153504_j16999480558341_2_alg».proof.Proof.KHost
import proofs.«153504_j16999480558341_2_alg».proof.Proof.KReg0
import proofs.«153504_j16999480558341_2_alg».proof.Proof.KReg1
import proofs.«153504_j16999480558341_2_alg».proof.Proof.RefBridge

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The rows the first region wrote: the features times the first weight, each row scaled by its node's factor. -/
theorem scaled_rows (r : Fin 100000) (k : Fin 128) :
    (dat0 (F := Ideal) (V3 m ρ) c).arrAt 3 cfg0.N (ix2 r k)
      = Cert.Gcn.xwS (m ((c : Thread nD τ).loc main_arg0)) (m ((c : Thread nD τ).loc main_arg2))
          (shapeCast S100000x1 (Cert.ReferenceIdeal.ReadP.val_main_v14 (F := Ideal) (m ((c : Thread nD τ).loc main_arg1))) shapeCasts_S100000_S100000x1) r k := by
  refine (KReg0.final0 (V3 m ρ) c r k).trans ?_
  rw [KHost.entry0_x, KHost.entry0_w, KHost.entry0_d]

/-- Entry `(n, cc)` of the result buffer after the run is the reference's last stage at that entry. -/
theorem result_at (n : Fin 100000) (cc : Fin 2) :
    W6 m ρ c (Proc.devRef .tc main_v29) (ix2 n cc)
      = Cert.ReferenceIdeal.ReadP.val_main_v52 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 n cc) := by
  refine (congrFun (KHost.result m ρ c) (ix2 n cc)).trans ((KReg1.final1 (V5 m ρ) c n cc).trans ?_)
  rw [KHost.entry1_x, KHost.entry1_agg, KHost.entry1_d, KHost.entry1_b1, KHost.entry1_w1, KHost.entry1_w2, KHost.entry1_bfc]
  exact Cert.ReferenceIdeal.RefBridge.out_bridge _ _ _ _ _ _ shapeCasts_S100000_S100000x1 slices_S256x2_S128x2_0_0
    slices_S256x2_S128x2_128_0 ((dat0 (F := Ideal) (V3 m ρ) c).arrAt 3 cfg0.N) (scaled_rows m ρ c) n cc

end Cert.KernelIdeal.KValue

end
-- ==== Proof.lean ====
/-
  A two-layer graph convolution: a tiled kernel program against its reference, equal on the extended reals.

  Both programs build the edge lists (with a self-loop per node), the in-degrees by a scatter-add of ones, and each node's
  factor `d n = 1/√deg n` (zero where the degree is not positive). The reference multiplies every gathered row of
  `x W₁` by `d[src] · d[dst]`, scatter-adds the rows at their destinations, adds the bias, rectifies, concatenates with
  the features and multiplies by the 256 x 2 output weight. The kernel program scales row `r` of `x W₁` by `d r` inside
  its first grid region, gathers and scatter-adds the scaled rows on the host, and in its second region multiplies the
  aggregate of node `n` by `d n`, adds the bias, rectifies, and adds the two 128-column products with the halves of
  the output weight. On the extended reals the two agree entry by entry: every update that lands on node `n` has
  destination `n`, so the destination factor is the same for all terms of the aggregate and, being a nonnegative real,
  may be multiplied through the sum; and a sum over 256 columns is the sum of its two halves. No finiteness of the
  inputs is used. Changes of float format are the identity on the extended reals, so the kernel's narrowing before its
  matrix products does not show.

  The frames of the two kernel programs are the generated ones; the reference's frame is its run with the result
  dropped; the idealization rewrote nothing, so nothing is owed for it.
-/
import proofs.«153504_j16999480558341_2_alg».proof.Defs
import proofs.«153504_j16999480558341_2_alg».proof.Proof.Gen.Kernel
import proofs.«153504_j16999480558341_2_alg».proof.Proof.Gen.Kernel.Skeleton
import proofs.«153504_j16999480558341_2_alg».proof.Proof.Gen.Kernel.Launch
import proofs.«153504_j16999480558341_2_alg».proof.Proof.Gen.Kernel.Points
import proofs.«153504_j16999480558341_2_alg».proof.Proof.Gen.Kernel.Frame
import proofs.«153504_j16999480558341_2_alg».proof.Proof.Gen.KernelIdeal
import proofs.«153504_j16999480558341_2_alg».proof.Proof.Gen.KernelIdeal.Skeleton
import proofs.«153504_j16999480558341_2_alg».proof.Proof.Gen.KernelIdeal.Launch
import proofs.«153504_j16999480558341_2_alg».proof.Proof.Gen.KernelIdeal.Points
import proofs.«153504_j16999480558341_2_alg».proof.Proof.Gen.KernelIdeal.Frame
import proofs.«153504_j16999480558341_2_alg».proof.Proof.Gen.ReferenceIdeal
import proofs.«153504_j16999480558341_2_alg».proof.Proof.Gen.Pre_finite_inputs
import proofs.«153504_j16999480558341_2_alg».proof.Proof.RefRun
import proofs.«153504_j16999480558341_2_alg».proof.Proof.RefRead
import proofs.«153504_j16999480558341_2_alg».proof.Proof.KValue
import Idealize.ShloMosaic.Adequacy
import Idealize.ShloMosaic.Init

noncomputable section

namespace Cert.Proof

open Idealize.ShloMosaic Idealize.ShloMosaic.ValueIdx Idealize.SL.Sem

/-- The kernel program as printed runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Run from memories that agree on the arguments, the two idealized programs end with the same result array: entry
    `(n, c)` of the kernel's result is the reference's last stage at `(n, c)` of the shared arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W6 m ρ c (Proc.devRef .tc Cert.KernelIdeal.main_v29),
    Cert.KernelIdeal.KRun.run_named m ρ, ?_⟩
  refine (θ_run Cert.ReferenceIdeal.defs _ _).mono (fun _ h c => ⟨(h c).1.trans ?_, (h c).2⟩)
    (Cert.ReferenceIdeal.ValueP.run (F := Ideal) m' ρ')
  funext i
  obtain ⟨n, cc, rfl⟩ : ∃ (n : Fin 100000) (cc : Fin 2), i = ix2 n cc := ⟨i 0, i 1, eq_ix2 i⟩
  rw [Cert.ReferenceIdeal.ReadP.val_main_v52_eq, (hagree c).1, (hagree c).2.1, (hagree c).2.2.1, (hagree c).2.2.2.1,
    (hagree c).2.2.2.2.1, (hagree c).2.2.2.2.2]
  exact (Cert.KernelIdeal.KValue.result_at m ρ c n cc).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
